-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v149) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x4 : Shape := ⟨3, ![8, 128, 4]⟩
abbrev S8x32x4 : Shape := ⟨3, ![8, 32, 4]⟩
abbrev S8x128 : Shape := ⟨2, ![8, 128]⟩
abbrev S8x32 : Shape := ⟨2, ![8, 32]⟩
abbrev S_ : Shape := ⟨0, ![]⟩

class Facts : Prop where
  bcast_S_S8x128x4 : S_.BroadcastsInDim S8x128x4 (![] : Fin 0 → Fin S8x128x4.rank)
  reducesTo_S8x128x4_S_d0_1_2 : S8x128x4.ReducesTo [0, 1, 2] S_
  h_S_ : 0 < S_.numel
  bcast_S_S8x32x4 : S_.BroadcastsInDim S8x32x4 (![] : Fin 0 → Fin S8x32x4.rank)
  reducesTo_S8x32x4_S_d0_1_2 : S8x32x4.ReducesTo [0, 1, 2] S_

variable [Facts]

def fn {F : FTy → Type} [FloatOps F] (main_arg0 : FVec F S8x128x4 .f32) (main_arg1 : FVec F S8x32x4 .f32) (main_arg2 : FVec F S8x32x4 .f32) (main_arg3 : IVec S8x128 32) (main_arg4 : IVec S8x32 32) : IVec S_ 1 :=
  let main_v0 : FVec F S8x128x4 .f32 := Host.absf main_arg0
  let main_cst : FVec F S_ .f32 := constant S_ .f32 0x7F800000#32
  let main_v1 : FVec F S8x128x4 .f32 := broadcastInDim S8x128x4 ![] bcast_S_S8x128x4 main_cst
  let main_v2 : IVec S8x128x4 1 := cmpf .olt main_v0 main_v1
  let main_c : IVec S_ 1 := constantI S_ 1 1#1
  let main_v3 : IVec S_ 1 := (fun x v => Host.reduce IntOp.andi x v reducesTo_S8x128x4_S_d0_1_2 h_S_) main_v2 main_c
  let main_v4 : FVec F S8x32x4 .f32 := Host.absf main_arg1
  let main_cst_0 : FVec F S_ .f32 := constant S_ .f32 0x7F800000#32
  let main_v5 : FVec F S8x32x4 .f32 := broadcastInDim S8x32x4 ![] bcast_S_S8x32x4 main_cst_0
  let main_v6 : IVec S8x32x4 1 := cmpf .olt main_v4 main_v5
  let main_c_1 : IVec S_ 1 := constantI S_ 1 1#1
  let main_v7 : IVec S_ 1 := (fun x v => Host.reduce IntOp.andi x v reducesTo_S8x32x4_S_d0_1_2 h_S_) main_v6 main_c_1
  let main_v8 : IVec S_ 1 := andi main_v3 main_v7
  let main_v9 : FVec F S8x32x4 .f32 := Host.absf main_arg2
  let main_cst_2 : FVec F S_ .f32 := constant S_ .f32 0x7F800000#32
  let main_v10 : FVec F S8x32x4 .f32 := broadcastInDim S8x32x4 ![] bcast_S_S8x32x4 main_cst_2
  let main_v11 : IVec S8x32x4 1 := cmpf .olt main_v9 main_v10
  let main_c_3 : IVec S_ 1 := constantI S_ 1 1#1
  let main_v12 : IVec S_ 1 := (fun x v => Host.reduce IntOp.andi x v reducesTo_S8x32x4_S_d0_1_2 h_S_) main_v11 main_c_3
  let main_v13 : IVec S_ 1 := andi main_v8 main_v12
  main_v13
-- ==== Kernel.lean ====
abbrev S8x128x4 : Shape := ⟨3, ![8, 128, 4]⟩
abbrev S8x32x4 : Shape := ⟨3, ![8, 32, 4]⟩
abbrev S8x128 : Shape := ⟨2, ![8, 128]⟩
abbrev S8x32 : Shape := ⟨2, ![8, 32]⟩
abbrev S128x8x4 : Shape := ⟨3, ![128, 8, 4]⟩
abbrev S128x8 : Shape := ⟨2, ![128, 8]⟩
abbrev S128x8x1 : Shape := ⟨3, ![128, 8, 1]⟩
abbrev S8x128x128x600 : Shape := ⟨4, ![8, 128, 128, 600]⟩
abbrev S4x8x4 : Shape := ⟨3, ![4, 8, 4]⟩
abbrev S4x8x1 : Shape := ⟨3, ![4, 8, 1]⟩
abbrev S8x4x128x600 : Shape := ⟨4, ![8, 4, 128, 600]⟩
abbrev S8x128x1x4 : Shape := ⟨4, ![8, 128, 1, 4]⟩
abbrev S8x1x32x4 : Shape := ⟨4, ![8, 1, 32, 4]⟩
abbrev S8x128x1x2 : Shape := ⟨4, ![8, 128, 1, 2]⟩
abbrev S8x1x32x2 : Shape := ⟨4, ![8, 1, 32, 2]⟩
abbrev S8x128x32x2 : Shape := ⟨4, ![8, 128, 32, 2]⟩
abbrev S8x128x32x1 : Shape := ⟨4, ![8, 128, 32, 1]⟩
abbrev S8x128x32 : Shape := ⟨3, ![8, 128, 32]⟩
abbrev S8x128x1x1 : Shape := ⟨4, ![8, 128, 1, 1]⟩
abbrev S8x128x1 : Shape := ⟨3, ![8, 128, 1]⟩
abbrev S8x1x32x1 : Shape := ⟨4, ![8, 1, 32, 1]⟩
abbrev S8x1x32 : Shape := ⟨3, ![8, 1, 32]⟩
abbrev S1x1x600 : Shape := ⟨3, ![1, 1, 600]⟩
abbrev S8x32x1 : Shape := ⟨3, ![8, 32, 1]⟩
abbrev S8x32x600 : Shape := ⟨3, ![8, 32, 600]⟩
abbrev S1x128 : Shape := ⟨2, ![1, 128]⟩
abbrev S128 : Shape := ⟨1, ![128]⟩
abbrev S1x8x4 : Shape := ⟨3, ![1, 8, 4]⟩
abbrev S8x4 : Shape := ⟨2, ![8, 4]⟩
abbrev S8x1x4 : Shape := ⟨3, ![8, 1, 4]⟩
abbrev S8x1x2 : Shape := ⟨3, ![8, 1, 2]⟩
abbrev S8x32x2 : Shape := ⟨3, ![8, 32, 2]⟩
abbrev S8x1x1 : Shape := ⟨3, ![8, 1, 1]⟩
abbrev S8x1 : Shape := ⟨2, ![8, 1]⟩
abbrev S8x128x600 : Shape := ⟨3, ![8, 128, 600]⟩
abbrev S1x8x1 : Shape := ⟨3, ![1, 8, 1]⟩
abbrev S8 : Shape := ⟨1, ![8]⟩
abbrev S8x1x128x600 : Shape := ⟨4, ![8, 1, 128, 600]⟩
abbrev S8x16384x600 : Shape := ⟨3, ![8, 16384, 600]⟩
abbrev S128x128 : Shape := ⟨2, ![128, 128]⟩
abbrev S16384 : Shape := ⟨1, ![16384]⟩
abbrev S16384x1 : Shape := ⟨2, ![16384, 1]⟩
abbrev S16384x2 : Shape := ⟨2, ![16384, 2]⟩

abbrev nBuf : Space → Nat
  | .hbm => 19
  | .vmem => 10
  | .smem => 0
  | _ => 0

abbrev bufTy : (tb : Table) → Fin (tcTables nBuf tb) → BufTy
  | .hbm, ⟨0, _⟩ => ⟨S8x128x4, .f32⟩
  | .hbm, ⟨1, _⟩ => ⟨S8x32x4, .f32⟩
  | .hbm, ⟨2, _⟩ => ⟨S8x32x4, .f32⟩
  | .hbm, ⟨3, _⟩ => ⟨S8x128, .i32⟩
  | .hbm, ⟨4, _⟩ => ⟨S8x32, .i32⟩
  | .hbm, ⟨5, _⟩ => ⟨S128x8x4, .f32⟩
  | .hbm, ⟨6, _⟩ => ⟨S128x8, .i32⟩
  | .hbm, ⟨7, _⟩ => ⟨S128x8x1, .i32⟩
  | .hbm, ⟨8, _⟩ => ⟨S8x128x128x600, .f32⟩
  | .hbm, ⟨9, _⟩ => ⟨S8x16384x600, .f32⟩
  | .hbm, ⟨10, _⟩ => ⟨S128, .i32⟩
  | .hbm, ⟨11, _⟩ => ⟨S128, .i32⟩
  | .hbm, ⟨12, _⟩ => ⟨S128x128, .i32⟩
  | .hbm, ⟨13, _⟩ => ⟨S128x128, .i32⟩
  | .hbm, ⟨14, _⟩ => ⟨S16384, .i32⟩
  | .hbm, ⟨15, _⟩ => ⟨S16384, .i32⟩
  | .hbm, ⟨16, _⟩ => ⟨S16384x1, .i32⟩
  | .hbm, ⟨17, _⟩ => ⟨S16384x1, .i32⟩
  | .hbm, ⟨18, _⟩ => ⟨S16384x2, .i32⟩
  | .local _ .vmem, ⟨0, _⟩ => ⟨S4x8x4, .f32⟩
  | .local _ .vmem, ⟨1, _⟩ => ⟨S4x8x4, .f32⟩
  | .local _ .vmem, ⟨2, _⟩ => ⟨S8x128x4, .f32⟩
  | .local _ .vmem, ⟨3, _⟩ => ⟨S8x32x4, .f32⟩
  | .local _ .vmem, ⟨4, _⟩ => ⟨S8x32x4, .f32⟩
  | .local _ .vmem, ⟨5, _⟩ => ⟨S4x8x1, .i32⟩
  | .local _ .vmem, ⟨6, _⟩ => ⟨S4x8x1, .i32⟩
  | .local _ .vmem, ⟨7, _⟩ => ⟨S8x32, .i32⟩
  | .local _ .vmem, ⟨8, _⟩ => ⟨S8x4x128x600, .f32⟩
  | .local _ .vmem, ⟨9, _⟩ => ⟨S8x4x128x600, .f32⟩
  | _, _ => ⟨S8x128x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c4_i32_10 : BitVec 32 := 4#32
  let v62 : BitVec 32 := Scalar.addi c0_i32 c4_i32_10
  let c1_i32 : BitVec 32 := 1#32
  ⟨c0_i32, v62, c1_i32⟩
def k0_off1 (k0_t1 : Fin k0_t1_loop.trips) : Fin 3 → Nat :=
  let c0_i32 : BitVec 32 := 0#32
  let c1_i32 : BitVec 32 := 1#32
  let arg8 : BitVec 32 := Scf.iv c0_i32 c1_i32 k0_t1
  let v63 : Index := Scalar.indexCast arg8
  let c0_12 : Index := 0#32
  let c0_13 : Index := 0#32
  ![v63.toNat, 0, 0]
def k0_off2 (k0_t1 : Fin k0_t1_loop.trips) : Fin 3 → Nat :=
  let c0_i32 : BitVec 32 := 0#32
  let c1_i32 : BitVec 32 := 1#32
  let arg8 : BitVec 32 := Scf.iv c0_i32 c1_i32 k0_t1
  let v121 : Index := Scalar.indexCast arg8
  let c0_18 : Index := 0#32
  let c0_19 : Index := 0#32
  ![v121.toNat, 0, 0]
def k0_off3 (k0_t1 : Fin k0_t1_loop.trips) : Fin 4 → Nat :=
  let c0_20 : Index := 0#32
  let c0_i32 : BitVec 32 := 0#32
  let c1_i32 : BitVec 32 := 1#32
  let arg8 : BitVec 32 := Scf.iv c0_i32 c1_i32 k0_t1
  let v143 : Index := Scalar.indexCast arg8
  let c0_21 : Index := 0#32
  let c0_22 : Index := 0#32
  ![0, v143.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S4x8x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x32x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x32x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x8x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x4x128x600 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S8x128x4_S128x8x4_1_0_2 : S8x128x4.Transposes [1, 0, 2] S128x8x4
  transposes_S8x128_S128x8_1_0 : S8x128.Transposes [1, 0] S128x8
  bcast_S128x8_S128x8x1_0_1 : S128x8.BroadcastsInDim S128x8x1 (![0, 1] : Fin 2 → Fin S128x8x1.rank)
  inb_S8x128x4_S8x128x4_0_0_0 : ∀ a, (![0, 0, 0] : Fin 3 → Nat) a + S8x128x4.size a ≤ S8x128x4.size a
  h_S8x128x4 : 0 < S8x128x4.numel
  shapeCasts_S8x128x4_S8x128x1x4 : S8x128x4.ShapeCasts S8x128x1x4
  inb_S8x32x4_S8x32x4_0_0_0 : ∀ a, (![0, 0, 0] : Fin 3 → Nat) a + S8x32x4.size a ≤ S8x32x4.size a
  h_S8x32x4 : 0 < S8x32x4.numel
  shapeCasts_S8x32x4_S8x1x32x4 : S8x32x4.ShapeCasts S8x1x32x4
  slices_S8x128x1x4_o0_0_0_0_S8x128x1x2 : S8x128x1x4.Slices ![0, 0, 0, 0] S8x128x1x2
  slices_S8x1x32x4_o0_0_0_0_S8x1x32x2 : S8x1x32x4.Slices ![0, 0, 0, 0] S8x1x32x2
  broadcasts_S8x128x1x2_S8x128x32x2 : S8x128x1x2.Broadcasts S8x128x32x2
  broadcasts_S8x1x32x2_S8x128x32x2 : S8x1x32x2.Broadcasts S8x128x32x2
  slices_S8x128x1x4_o0_0_0_2_S8x128x1x2 : S8x128x1x4.Slices ![0, 0, 0, 2] S8x128x1x2
  slices_S8x1x32x4_o0_0_0_2_S8x1x32x2 : S8x1x32x4.Slices ![0, 0, 0, 2] S8x1x32x2
  slices_S8x128x32x2_o0_0_0_0_S8x128x32x1 : S8x128x32x2.Slices ![0, 0, 0, 0] S8x128x32x1
  shapeCasts_S8x128x32x1_S8x128x32 : S8x128x32x1.ShapeCasts S8x128x32
  slices_S8x128x32x2_o0_0_0_1_S8x128x32x1 : S8x128x32x2.Slices ![0, 0, 0, 1] S8x128x32x1
  slices_S8x128x1x4_o0_0_0_2_S8x128x1x1 : S8x128x1x4.Slices ![0, 0, 0, 2] S8x128x1x1
  shapeCasts_S8x128x1x1_S8x128x1 : S8x128x1x1.ShapeCasts S8x128x1
  slices_S8x128x1x4_o0_0_0_0_S8x128x1x1 : S8x128x1x4.Slices ![0, 0, 0, 0] S8x128x1x1
  slices_S8x128x1x4_o0_0_0_3_S8x128x1x1 : S8x128x1x4.Slices ![0, 0, 0, 3] S8x128x1x1
  slices_S8x128x1x4_o0_0_0_1_S8x128x1x1 : S8x128x1x4.Slices ![0, 0, 0, 1] S8x128x1x1
  slices_S8x1x32x4_o0_0_0_2_S8x1x32x1 : S8x1x32x4.Slices ![0, 0, 0, 2] S8x1x32x1
  shapeCasts_S8x1x32x1_S8x1x32 : S8x1x32x1.ShapeCasts S8x1x32
  slices_S8x1x32x4_o0_0_0_0_S8x1x32x1 : S8x1x32x4.Slices ![0, 0, 0, 0] S8x1x32x1
  slices_S8x1x32x4_o0_0_0_3_S8x1x32x1 : S8x1x32x4.Slices ![0, 0, 0, 3] S8x1x32x1
  slices_S8x1x32x4_o0_0_0_1_S8x1x32x1 : S8x1x32x4.Slices ![0, 0, 0, 1] S8x1x32x1
  broadcasts_S8x128x1_S8x128x32 : S8x128x1.Broadcasts S8x128x32
  broadcasts_S8x1x32_S8x128x32 : S8x1x32.Broadcasts S8x128x32
  inb_S8x32_S8x32_0_0 : ∀ a, (![0, 0] : Fin 2 → Nat) a + S8x32.size a ≤ S8x32.size a
  h_S8x32 : 0 < S8x32.numel
  iota_S1x1x600_d2_w32 : S1x1x600.Iotas .tc 32 [2]
  shapeCasts_S8x32_S8x32x1 : S8x32.ShapeCasts S8x32x1
  broadcasts_S8x32x1_S8x32x600 : S8x32x1.Broadcasts S8x32x600
  broadcasts_S1x1x600_S8x32x600 : S1x1x600.Broadcasts S8x32x600
  natLt_1_32 : 1 < 32
  bitsLt_bf16_f32 : FTy.bits .bf16 < FTy.bits .f32
  iota_S1x128_d1_w32 : S1x128.Iotas .tc 32 [1]
  shapeCasts_S1x128_S128 : S1x128.ShapeCasts S128
  h_S1x8x4 : 0 < S1x8x4.numel
  shapeCasts_S1x8x4_S1x8x4 : S1x8x4.ShapeCasts S1x8x4
  shapeCasts_S1x8x4_S8x4 : S1x8x4.ShapeCasts S8x4
  shapeCasts_S8x4_S8x1x4 : S8x4.ShapeCasts S8x1x4
  slices_S8x1x4_o0_0_0_S8x1x2 : S8x1x4.Slices ![0, 0, 0] S8x1x2
  slices_S8x32x4_o0_0_0_S8x32x2 : S8x32x4.Slices ![0, 0, 0] S8x32x2
  broadcasts_S8x1x2_S8x32x2 : S8x1x2.Broadcasts S8x32x2
  slices_S8x1x4_o0_0_2_S8x1x2 : S8x1x4.Slices ![0, 0, 2] S8x1x2
  slices_S8x32x4_o0_0_2_S8x32x2 : S8x32x4.Slices ![0, 0, 2] S8x32x2
  slices_S8x32x2_o0_0_0_S8x32x1 : S8x32x2.Slices ![0, 0, 0] S8x32x1
  shapeCasts_S8x32x1_S8x32 : S8x32x1.ShapeCasts S8x32
  slices_S8x32x2_o0_0_1_S8x32x1 : S8x32x2.Slices ![0, 0, 1] S8x32x1
  slices_S8x1x4_o0_0_2_S8x1x1 : S8x1x4.Slices ![0, 0, 2] S8x1x1
  shapeCasts_S8x1x1_S8x1 : S8x1x1.ShapeCasts S8x1
  slices_S8x1x4_o0_0_0_S8x1x1 : S8x1x4.Slices ![0, 0, 0] S8x1x1
  slices_S8x1x4_o0_0_3_S8x1x1 : S8x1x4.Slices ![0, 0, 3] S8x1x1
  slices_S8x1x4_o0_0_1_S8x1x1 : S8x1x4.Slices ![0, 0, 1] S8x1x1
  slices_S8x32x4_o0_0_2_S8x32x1 : S8x32x4.Slices ![0, 0, 2] S8x32x1
  slices_S8x32x4_o0_0_0_S8x32x1 : S8x32x4.Slices ![0, 0, 0] S8x32x1
  slices_S8x32x4_o0_0_3_S8x32x1 : S8x32x4.Slices ![0, 0, 3] S8x32x1
  slices_S8x32x4_o0_0_1_S8x32x1 : S8x32x4.Slices ![0, 0, 1] S8x32x1
  broadcasts_S8x1_S8x32 : S8x1.Broadcasts S8x32
  shapeCasts_S8x32_S8x1x32 : S8x32.ShapeCasts S8x1x32
  h_S1x8x1 : 0 < S1x8x1.numel
  shapeCasts_S1x8x1_S1x8x1 : S1x8x1.ShapeCasts S1x8x1
  shapeCasts_S1x8x1_S8 : S1x8x1.ShapeCasts S8
  shapeCasts_S128_S1x128 : S128.ShapeCasts S1x128
  shapeCasts_S8_S8x1 : S8.ShapeCasts S8x1
  broadcasts_S8x1_S8x128 : S8x1.Broadcasts S8x128
  broadcasts_S1x128_S8x128 : S1x128.Broadcasts S8x128
  shapeCasts_S8x128_S8x128x1 : S8x128.ShapeCasts S8x128x1
  broadcasts_S8x128x1_S8x128x600 : S8x128x1.Broadcasts S8x128x600
  shapeCasts_S8x128x600_S8x1x128x600 : S8x128x600.ShapeCasts S8x1x128x600
  h_S8x1x128x600 : 0 < S8x1x128x600.numel
  shapeCasts_S8x128x128x600_S8x16384x600 : S8x128x128x600.ShapeCasts S8x16384x600
  bcast_S128_S128x128_0 : S128.BroadcastsInDim S128x128 (![0] : Fin 1 → Fin S128x128.rank)
  bcast_S128_S128x128_1 : S128.BroadcastsInDim S128x128 (![1] : Fin 1 → Fin S128x128.rank)
  shapeCasts_S128x128_S16384 : S128x128.ShapeCasts S16384
  bcast_S16384_S16384x1_0 : S16384.BroadcastsInDim S16384x1 (![0] : Fin 1 → Fin S16384x1.rank)
  concatenates_S16384x1_S16384x1_S16384x2_d1 : Shape.Concatenates [S16384x1, S16384x1] S16384x2 1
  dot_S8x128x32_S8x32x600_S8x128x600_2_1_1_2_0_0_wf : DotDims.WF S8x128x32 S8x32x600 S8x128x600 [2] [1] [1] [2] [0] [0]
  hrank0 : 0 < grid0.rank
  k0_t1_ok : k0_t1_loop.OK
  k0_off1_inb : ∀ k0_t1 : Fin k0_t1_loop.trips, ∀ a, (k0_off1 k0_t1) a + S1x8x4.size a ≤ S4x8x4.size a
  k0_off2_inb : ∀ k0_t1 : Fin k0_t1_loop.trips, ∀ a, (k0_off2 k0_t1) a + S1x8x1.size a ≤ S4x8x1.size a
  k0_off3_inb : ∀ k0_t1 : Fin k0_t1_loop.trips, ∀ a, (k0_off3 k0_t1) a + S8x1x128x600.size a ≤ S8x4x128x600.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x8x4.size a ≤ S128x8x4.size a
  hwx0_0 : ∀ i : grid0.Coords, EltTy.bits .f32 = 32 ∨ (Rect.block (s := S128x8x4) S4x8x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x4.size a ≤ S8x128x4.size a
  hwx0_1 : ∀ i : grid0.Coords, EltTy.bits .f32 = 32 ∨ (Rect.block (s := S8x128x4) S8x128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x32x4.size a ≤ S8x32x4.size a
  hwx0_2 : ∀ i : grid0.Coords, EltTy.bits .f32 = 32 ∨ (Rect.block (s := S8x32x4) S8x32x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x32x4.size a ≤ S8x32x4.size a
  hwx0_3 : ∀ i : grid0.Coords, EltTy.bits .f32 = 32 ∨ (Rect.block (s := S8x32x4) S8x32x4.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x8x1.size a ≤ S128x8x1.size a
  hwx0_4 : ∀ i : grid0.Coords, EltTy.bits .i32 = 32 ∨ (Rect.block (s := S128x8x1) S4x8x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .i32 = 32 ∨ (Rect.block (s := S8x32) S8x32.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x4x128x600.size a ≤ S8x128x128x600.size a
  hwx0_6 : ∀ i : grid0.Coords, EltTy.bits .f32 = 32 ∨ (Rect.block (s := S8x128x128x600) S8x4x128x600.size (cc0_transform_6 i) (hinb0_6 i)).WholeWords (EltTy.packing .f32)

variable [Facts₀]

def dot_S8x128x32_S8x32x600_S8x128x600_2_1_1_2_0_0 : DotDims S8x128x32 S8x32x600 S8x128x600 where
  lhsContracting := [2]
  rhsContracting := [1]
  lhsNonContracting := [1]
  rhsNonContracting := [2]
  lhsBatch := [0]
  rhsBatch := [0]
  wf := dot_S8x128x32_S8x32x600_S8x128x600_2_1_1_2_0_0_wf

abbrev win0_0 : Pipeline.Window sig grid0 :=
  Pipeline.Window.ofSpec (Memref.whole main_v0) S4x8x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x32x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S8x32x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S4x8x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S8x4x128x600.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x4 : Shape := ⟨3, ![8, 128, 4]⟩
abbrev S8x32x4 : Shape := ⟨3, ![8, 32, 4]⟩
abbrev S8x128 : Shape := ⟨2, ![8, 128]⟩
abbrev S8x32 : Shape := ⟨2, ![8, 32]⟩
abbrev S128 : Shape := ⟨1, ![128]⟩
abbrev S128x128 : Shape := ⟨2, ![128, 128]⟩
abbrev S16384 : Shape := ⟨1, ![16384]⟩
abbrev S16384x1 : Shape := ⟨2, ![16384, 1]⟩
abbrev S16384x2 : Shape := ⟨2, ![16384, 2]⟩
abbrev S_ : Shape := ⟨0, ![]⟩
abbrev S8x16384 : Shape := ⟨2, ![8, 16384]⟩
abbrev S1x16384 : Shape := ⟨2, ![1, 16384]⟩
abbrev S8x16384x4 : Shape := ⟨3, ![8, 16384, 4]⟩
abbrev S8x16384x1x4 : Shape := ⟨4, ![8, 16384, 1, 4]⟩
abbrev S8x1x32x4 : Shape := ⟨4, ![8, 1, 32, 4]⟩
abbrev S8x16384x1x2 : Shape := ⟨4, ![8, 16384, 1, 2]⟩
abbrev S8x1x32x2 : Shape := ⟨4, ![8, 1, 32, 2]⟩
abbrev S8x16384x32x2 : Shape := ⟨4, ![8, 16384, 32, 2]⟩
abbrev S8x16384x32x1 : Shape := ⟨4, ![8, 16384, 32, 1]⟩
abbrev S8x16384x32 : Shape := ⟨3, ![8, 16384, 32]⟩
abbrev S8x16384x1x1 : Shape := ⟨4, ![8, 16384, 1, 1]⟩
abbrev S8x16384x1 : Shape := ⟨3, ![8, 16384, 1]⟩
abbrev S8x1x32x1 : Shape := ⟨4, ![8, 1, 32, 1]⟩
abbrev S8x1x32 : Shape := ⟨3, ![8, 1, 32]⟩
abbrev S8x32x1 : Shape := ⟨3, ![8, 32, 1]⟩
abbrev S1x1x600 : Shape := ⟨3, ![1, 1, 600]⟩
abbrev S8x32x600 : Shape := ⟨3, ![8, 32, 600]⟩
abbrev S8x16384x600 : Shape := ⟨3, ![8, 16384, 600]⟩

abbrev nBuf : Space → Nat
  | .hbm => 175
  | .vmem => 0
  | .smem => 0
  | _ => 0

abbrev hbmTy0_0 (i : Nat) : BufTy := match i % 128 with
  | 0 => ⟨S8x128x4, .f32⟩
  | 1 => ⟨S8x32x4, .f32⟩
  | 2 => ⟨S8x32x4, .f32⟩
  | 3 => ⟨S8x128, .i32⟩
  | 4 => ⟨S8x32, .i32⟩
  | 5 => ⟨S128, .i32⟩
  | 6 => ⟨S128, .i32⟩
  | 7 => ⟨S128x128, .i32⟩
  | 8 => ⟨S128x128, .i32⟩
  | 9 => ⟨S16384, .i32⟩
  | 10 => ⟨S16384, .i32⟩
  | 11 => ⟨S16384x1, .i32⟩
  | 12 => ⟨S16384x1, .i32⟩
  | 13 => ⟨S16384x2, .i32⟩
  | 14 => ⟨S16384x1, .i32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i32⟩
  | 22 => ⟨S16384, .i32⟩
  | 23 => ⟨S16384x1, .i32⟩
  | 24 => ⟨S8x16384, .i32⟩
  | 25 => ⟨S_, .i32⟩
  | 26 => ⟨S8x16384, .i32⟩
  | 27 => ⟨S8x16384, .i1⟩
  | 28 => ⟨S16384x1, .i32⟩
  | 29 => ⟨S16384, .i32⟩
  | 30 => ⟨S16384x1, .i32⟩
  | 31 => ⟨S16384, .i32⟩
  | 32 => ⟨S16384, .i1⟩
  | 33 => ⟨S1x16384, .i1⟩
  | 34 => ⟨S8x16384, .i1⟩
  | 35 => ⟨S8x16384, .i1⟩
  | 36 => ⟨S16384x1, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S8x16384x4, .f32⟩
  | 47 => ⟨S16384x1, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i32⟩
  | 55 => ⟨S16384, .i32⟩
  | 56 => ⟨S16384x1, .i32⟩
  | 57 => ⟨S8x16384x4, .f32⟩
  | 58 => ⟨S8x16384x1x4, .f32⟩
  | 59 => ⟨S8x1x32x4, .f32⟩
  | 60 => ⟨S8x16384x1x2, .f32⟩
  | 61 => ⟨S8x1x32x2, .f32⟩
  | 62 => ⟨S8x16384x32x2, .f32⟩
  | 63 => ⟨S8x16384x32x2, .f32⟩
  | 64 => ⟨S8x16384x32x2, .f32⟩
  | 65 => ⟨S8x16384x1x2, .f32⟩
  | 66 => ⟨S8x1x32x2, .f32⟩
  | 67 => ⟨S8x16384x32x2, .f32⟩
  | 68 => ⟨S8x16384x32x2, .f32⟩
  | 69 => ⟨S8x16384x32x2, .f32⟩
  | 70 => ⟨S8x16384x32x2, .f32⟩
  | 71 => ⟨S_, .f32⟩
  | 72 => ⟨S_, .f32⟩
  | 73 => ⟨S8x16384x32x2, .f32⟩
  | 74 => ⟨S8x16384x32x2, .f32⟩
  | 75 => ⟨S8x16384x32x1, .f32⟩
  | 76 => ⟨S8x16384x32, .f32⟩
  | 77 => ⟨S8x16384x32x1, .f32⟩
  | 78 => ⟨S8x16384x32, .f32⟩
  | 79 => ⟨S8x16384x32, .f32⟩
  | 80 => ⟨S8x16384x1x1, .f32⟩
  | 81 => ⟨S8x16384x1, .f32⟩
  | 82 => ⟨S8x16384x1x1, .f32⟩
  | 83 => ⟨S8x16384x1, .f32⟩
  | 84 => ⟨S8x16384x1, .f32⟩
  | 85 => ⟨S8x16384x1x1, .f32⟩
  | 86 => ⟨S8x16384x1, .f32⟩
  | 87 => ⟨S8x16384x1x1, .f32⟩
  | 88 => ⟨S8x16384x1, .f32⟩
  | 89 => ⟨S8x16384x1, .f32⟩
  | 90 => ⟨S8x16384x1, .f32⟩
  | 91 => ⟨S8x1x32x1, .f32⟩
  | 92 => ⟨S8x1x32, .f32⟩
  | 93 => ⟨S8x1x32x1, .f32⟩
  | 94 => ⟨S8x1x32, .f32⟩
  | 95 => ⟨S8x1x32, .f32⟩
  | 96 => ⟨S8x1x32x1, .f32⟩
  | 97 => ⟨S8x1x32, .f32⟩
  | 98 => ⟨S8x1x32x1, .f32⟩
  | 99 => ⟨S8x1x32, .f32⟩
  | 100 => ⟨S8x1x32, .f32⟩
  | 101 => ⟨S8x1x32, .f32⟩
  | 102 => ⟨S8x16384x32, .f32⟩
  | 103 => ⟨S8x16384x32, .f32⟩
  | 104 => ⟨S8x16384x32, .f32⟩
  | 105 => ⟨S8x16384x32, .f32⟩
  | 106 => ⟨S8x16384x32, .f32⟩
  | 107 => ⟨S8x16384x1x4, .f32⟩
  | 108 => ⟨S8x1x32x4, .f32⟩
  | 109 => ⟨S8x16384x1x2, .f32⟩
  | 110 => ⟨S8x1x32x2, .f32⟩
  | 111 => ⟨S8x16384x32x2, .f32⟩
  | 112 => ⟨S8x16384x32x2, .f32⟩
  | 113 => ⟨S8x16384x32x2, .f32⟩
  | 114 => ⟨S8x16384x1x2, .f32⟩
  | 115 => ⟨S8x1x32x2, .f32⟩
  | 116 => ⟨S8x16384x32x2, .f32⟩
  | 117 => ⟨S8x16384x32x2, .f32⟩
  | 118 => ⟨S8x16384x32x2, .f32⟩
  | 119 => ⟨S8x16384x32x2, .f32⟩
  | 120 => ⟨S_, .f32⟩
  | 121 => ⟨S_, .f32⟩
  | 122 => ⟨S8x16384x32x2, .f32⟩
  | 123 => ⟨S8x16384x32x2, .f32⟩
  | 124 => ⟨S8x16384x32x1, .f32⟩
  | 125 => ⟨S8x16384x32, .f32⟩
  | 126 => ⟨S8x16384x32x1, .f32⟩
  | 127 => ⟨S8x16384x32, .f32⟩
  | _ => ⟨S8x128x4, .f32⟩

abbrev hbmTy0_1 (i : Nat) : BufTy := match i % 128 with
  | 0 => ⟨S8x16384x32, .f32⟩
  | 1 => ⟨S8x16384x1x1, .f32⟩
  | 2 => ⟨S8x16384x1, .f32⟩
  | 3 => ⟨S8x16384x1x1, .f32⟩
  | 4 => ⟨S8x16384x1, .f32⟩
  | 5 => ⟨S8x16384x1, .f32⟩
  | 6 => ⟨S8x16384x1x1, .f32⟩
  | 7 => ⟨S8x16384x1, .f32⟩
  | 8 => ⟨S8x16384x1x1, .f32⟩
  | 9 => ⟨S8x16384x1, .f32⟩
  | 10 => ⟨S8x16384x1, .f32⟩
  | 11 => ⟨S8x16384x1, .f32⟩
  | 12 => ⟨S8x1x32x1, .f32⟩
  | 13 => ⟨S8x1x32, .f32⟩
  | 14 => ⟨S8x1x32x1, .f32⟩
  | 15 => ⟨S8x1x32, .f32⟩
  | 16 => ⟨S8x1x32, .f32⟩
  | 17 => ⟨S8x1x32x1, .f32⟩
  | 18 => ⟨S8x1x32, .f32⟩
  | 19 => ⟨S8x1x32x1, .f32⟩
  | 20 => ⟨S8x1x32, .f32⟩
  | 21 => ⟨S8x1x32, .f32⟩
  | 22 => ⟨S8x1x32, .f32⟩
  | 23 => ⟨S8x16384x32, .f32⟩
  | 24 => ⟨S8x16384x32, .f32⟩
  | 25 => ⟨S8x16384x32, .f32⟩
  | 26 => ⟨S8x16384x32, .f32⟩
  | 27 => ⟨S8x16384x32, .f32⟩
  | 28 => ⟨S8x16384x32, .f32⟩
  | 29 => ⟨S_, .f32⟩
  | 30 => ⟨S8x16384x32, .f32⟩
  | 31 => ⟨S8x16384x32, .i1⟩
  | 32 => ⟨S8x16384x32, .f32⟩
  | 33 => ⟨S8x32x1, .i32⟩
  | 34 => ⟨S1x1x600, .i32⟩
  | 35 => ⟨S8x32x600, .i32⟩
  | 36 => ⟨S8x32x600, .i32⟩
  | 37 => ⟨S8x32x600, .i1⟩
  | 38 => ⟨S8x32x600, .f32⟩
  | 39 => ⟨S8x16384x600, .f32⟩
  | 40 => ⟨S_, .f32⟩
  | 41 => ⟨S8x16384x600, .f32⟩
  | 42 => ⟨S8x16384x600, .f32⟩
  | 43 => ⟨S8x16384x1, .i1⟩
  | 44 => ⟨S8x16384x1, .f32⟩
  | 45 => ⟨S8x16384x600, .f32⟩
  | 46 => ⟨S8x16384x600, .f32⟩
  | _ => ⟨S8x128x4, .f32⟩

abbrev hbmTy (i : Nat) : BufTy := match i / 128 with
  | 0 => hbmTy0_0 i
  | 1 => hbmTy0_1 i
  | _ => ⟨S8x128x4, .f32⟩

abbrev bufTy : (tb : Table) → Fin (tcTables nBuf tb) → BufTy
  | .hbm, ⟨i, _⟩ => hbmTy i
  | _, _ => ⟨S8x128x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_c_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst : Ref sig .tc := ⟨.hbm, 71, rfl⟩
abbrev main_call0_v0 : Ref sig .tc := ⟨.hbm, 72, rfl⟩
abbrev main_call0_v1 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_v104 : Ref sig .tc := ⟨.hbm, 119, rfl⟩
abbrev main_cst_6 : Ref sig .tc := ⟨.hbm, 120, rfl⟩
abbrev main_call1_v0 : Ref sig .tc := ⟨.hbm, 121, rfl⟩
abbrev main_call1_v1 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_cst_7 : Ref sig .tc := ⟨.hbm, 157, rfl⟩
abbrev main_v139 : Ref sig .tc := ⟨.hbm, 158, rfl⟩
abbrev main_v140 : Ref sig .tc := ⟨.hbm, 159, rfl⟩
abbrev main_v141 : Ref sig .tc := ⟨.hbm, 160, rfl⟩
abbrev main_call2_v0 : Ref sig .tc := ⟨.hbm, 161, rfl⟩
abbrev main_call2_v1 : Ref sig .tc := ⟨.hbm, 162, rfl⟩
abbrev main_call2_v2 : Ref sig .tc := ⟨.hbm, 163, rfl⟩
abbrev main_call2_v3 : Ref sig .tc := ⟨.hbm, 164, rfl⟩
abbrev main_call2_v4 : Ref sig .tc := ⟨.hbm, 165, rfl⟩
abbrev main_v142 : Ref sig .tc := ⟨.hbm, 166, rfl⟩
abbrev main_v143 : Ref sig .tc := ⟨.hbm, 167, rfl⟩
abbrev main_cst_8 : Ref sig .tc := ⟨.hbm, 168, rfl⟩
abbrev main_v144 : Ref sig .tc := ⟨.hbm, 169, rfl⟩
abbrev main_v145 : Ref sig .tc := ⟨.hbm, 170, rfl⟩
abbrev main_v146 : Ref sig .tc := ⟨.hbm, 171, rfl⟩
abbrev main_v147 : Ref sig .tc := ⟨.hbm, 172, rfl⟩
abbrev main_v148 : Ref sig .tc := ⟨.hbm, 173, rfl⟩
abbrev main_v149 : Ref sig .tc := ⟨.hbm, 174, rfl⟩

abbrev nD : Nat := 1
abbrev τ : Topo := Topo.v7x

variable {F : FTy → Type} [FloatOps F]

class Facts₀ : Prop where
  bcast_S128_S128x128_0 : S128.BroadcastsInDim S128x128 (![0] : Fin 1 → Fin S128x128.rank)
  bcast_S128_S128x128_1 : S128.BroadcastsInDim S128x128 (![1] : Fin 1 → Fin S128x128.rank)
  shapeCasts_S128x128_S16384 : S128x128.ShapeCasts S16384
  bcast_S16384_S16384x1_0 : S16384.BroadcastsInDim S16384x1 (![0] : Fin 1 → Fin S16384x1.rank)
  concatenates_S16384x1_S16384x1_S16384x2_d1 : Shape.Concatenates [S16384x1, S16384x1] S16384x2 1
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S_S8x16384 : S_.BroadcastsInDim S8x16384 (![] : Fin 0 → Fin S8x16384.rank)
  slices_S16384x2_S16384x1_0_1 : S16384x2.Slices ![0, 1] S16384x1
  bcast_S16384_S1x16384_1 : S16384.BroadcastsInDim S1x16384 (![1] : Fin 1 → Fin S1x16384.rank)
  bcast_S1x16384_S8x16384_0_1 : S1x16384.BroadcastsInDim S8x16384 (![0, 1] : Fin 2 → Fin S8x16384.rank)
  bcast_S8x16384x4_S8x16384x1x4_0_1_3 : S8x16384x4.BroadcastsInDim S8x16384x1x4 (![0, 1, 3] : Fin 3 → Fin S8x16384x1x4.rank)
  bcast_S8x32x4_S8x1x32x4_0_2_3 : S8x32x4.BroadcastsInDim S8x1x32x4 (![0, 2, 3] : Fin 3 → Fin S8x1x32x4.rank)
  slices_S8x16384x1x4_S8x16384x1x2_0_0_0_0 : S8x16384x1x4.Slices ![0, 0, 0, 0] S8x16384x1x2
  slices_S8x1x32x4_S8x1x32x2_0_0_0_0 : S8x1x32x4.Slices ![0, 0, 0, 0] S8x1x32x2
  bcast_S8x16384x1x2_S8x16384x32x2_0_1_2_3 : S8x16384x1x2.BroadcastsInDim S8x16384x32x2 (![0, 1, 2, 3] : Fin 4 → Fin S8x16384x32x2.rank)
  bcast_S8x1x32x2_S8x16384x32x2_0_1_2_3 : S8x1x32x2.BroadcastsInDim S8x16384x32x2 (![0, 1, 2, 3] : Fin 4 → Fin S8x16384x32x2.rank)
  slices_S8x16384x1x4_S8x16384x1x2_0_0_0_2 : S8x16384x1x4.Slices ![0, 0, 0, 2] S8x16384x1x2
  slices_S8x1x32x4_S8x1x32x2_0_0_0_2 : S8x1x32x4.Slices ![0, 0, 0, 2] S8x1x32x2
  bcast_S_S8x16384x32x2 : S_.BroadcastsInDim S8x16384x32x2 (![] : Fin 0 → Fin S8x16384x32x2.rank)
  slices_S8x16384x32x2_S8x16384x32x1_0_0_0_0 : S8x16384x32x2.Slices ![0, 0, 0, 0] S8x16384x32x1
  shapeCasts_S8x16384x32x1_S8x16384x32 : S8x16384x32x1.ShapeCasts S8x16384x32
  slices_S8x16384x32x2_S8x16384x32x1_0_0_0_1 : S8x16384x32x2.Slices ![0, 0, 0, 1] S8x16384x32x1
  slices_S8x16384x1x4_S8x16384x1x1_0_0_0_2 : S8x16384x1x4.Slices ![0, 0, 0, 2] S8x16384x1x1
  shapeCasts_S8x16384x1x1_S8x16384x1 : S8x16384x1x1.ShapeCasts S8x16384x1
  slices_S8x16384x1x4_S8x16384x1x1_0_0_0_0 : S8x16384x1x4.Slices ![0, 0, 0, 0] S8x16384x1x1
  slices_S8x16384x1x4_S8x16384x1x1_0_0_0_3 : S8x16384x1x4.Slices ![0, 0, 0, 3] S8x16384x1x1
  slices_S8x16384x1x4_S8x16384x1x1_0_0_0_1 : S8x16384x1x4.Slices ![0, 0, 0, 1] S8x16384x1x1
  slices_S8x1x32x4_S8x1x32x1_0_0_0_2 : S8x1x32x4.Slices ![0, 0, 0, 2] S8x1x32x1
  shapeCasts_S8x1x32x1_S8x1x32 : S8x1x32x1.ShapeCasts S8x1x32
  slices_S8x1x32x4_S8x1x32x1_0_0_0_0 : S8x1x32x4.Slices ![0, 0, 0, 0] S8x1x32x1
  slices_S8x1x32x4_S8x1x32x1_0_0_0_3 : S8x1x32x4.Slices ![0, 0, 0, 3] S8x1x32x1
  slices_S8x1x32x4_S8x1x32x1_0_0_0_1 : S8x1x32x4.Slices ![0, 0, 0, 1] S8x1x32x1
  bcast_S8x16384x1_S8x16384x32_0_1_2 : S8x16384x1.BroadcastsInDim S8x16384x32 (![0, 1, 2] : Fin 3 → Fin S8x16384x32.rank)
  bcast_S8x1x32_S8x16384x32_0_1_2 : S8x1x32.BroadcastsInDim S8x16384x32 (![0, 1, 2] : Fin 3 → Fin S8x16384x32.rank)
  bcast_S_S8x16384x32 : S_.BroadcastsInDim S8x16384x32 (![] : Fin 0 → Fin S8x16384x32.rank)
  bcast_S8x32_S8x32x1_0_1 : S8x32.BroadcastsInDim S8x32x1 (![0, 1] : Fin 2 → Fin S8x32x1.rank)
  bcast_S8x32x1_S8x32x600_0_1_2 : S8x32x1.BroadcastsInDim S8x32x600 (![0, 1, 2] : Fin 3 → Fin S8x32x600.rank)
  bcast_S1x1x600_S8x32x600_0_1_2 : S1x1x600.BroadcastsInDim S8x32x600 (![0, 1, 2] : Fin 3 → Fin S8x32x600.rank)
  bcast_S_S8x16384x600 : S_.BroadcastsInDim S8x16384x600 (![] : Fin 0 → Fin S8x16384x600.rank)
  bcast_S8x16384_S8x16384x1_0_1 : S8x16384.BroadcastsInDim S8x16384x1 (![0, 1] : Fin 2 → Fin S8x16384x1.rank)
  bcast_S8x16384x1_S8x16384x600_0_1_2 : S8x16384x1.BroadcastsInDim S8x16384x600 (![0, 1, 2] : Fin 3 → Fin S8x16384x600.rank)
  gather_S8x128_S16384x1_S8x16384_0_1_n_n_1_1_81_wf : GatherDims.WF S8x128 S16384x1 S8x16384 [0] [1] [] [1] [] 1 ![8, 1]
  gather_S8x128x4_S16384x1_S8x16384x4_02_1_n_n_1_1_814_wf : GatherDims.WF S8x128x4 S16384x1 S8x16384x4 [0, 2] [1] [] [1] [] 1 ![8, 1, 4]
  dot_S8x16384x32_S8x32x600_S8x16384x600_2_1_1_2_0_0_wf : DotDims.WF S8x16384x32 S8x32x600 S8x16384x600 [2] [1] [1] [2] [0] [0]

variable [Facts₀]

def gather_S8x128_S16384x1_S8x16384_0_1_n_n_1_1_81 : GatherDims S8x128 S16384x1 S8x16384 where
  offsetDims := [0]
  collapsedSliceDims := [1]
  operandBatchingDims := []
  startIndicesBatchingDims := []
  startIndexMap := [1]
  indexVectorDim := 1
  sliceSizes := ![8, 1]
  wf := gather_S8x128_S16384x1_S8x16384_0_1_n_n_1_1_81_wf
def gather_S8x128x4_S16384x1_S8x16384x4_02_1_n_n_1_1_814 : GatherDims S8x128x4 S16384x1 S8x16384x4 where
  offsetDims := [0, 2]
  collapsedSliceDims := [1]
  operandBatchingDims := []
  startIndicesBatchingDims := []
  startIndexMap := [1]
  indexVectorDim := 1
  sliceSizes := ![8, 1, 4]
  wf := gather_S8x128x4_S16384x1_S8x16384x4_02_1_n_n_1_1_814_wf
def dot_S8x16384x32_S8x32x600_S8x16384x600_2_1_1_2_0_0 : DotDims S8x16384x32 S8x32x600 S8x16384x600 where
  lhsContracting := [2]
  rhsContracting := [1]
  lhsNonContracting := [1]
  rhsNonContracting := [2]
  lhsBatch := [0]
  rhsBatch := [0]
  wf := dot_S8x16384x32_S8x32x600_S8x16384x600_2_1_1_2_0_0_wf

class Facts : Prop extends Facts₀ where

variable [Facts]
-- ==== Proof.Spec.lean ====
/-
  The function both programs compute, index by index, on the extended reals.

  For a batch entry `b`, a "human" box `i` and an "object" box `j` (both rows of `boxes`), a candidate `m`
  (a row of `boxes_h` paired with the same row of `boxes_o`) MATCHES the pair when the smaller of the two
  intersection-over-unions, box `i` against `boxes_h[m]` and box `j` against `boxes_o[m]`, is at least one half.
  The label of class `c` for the pair is the number of matching candidates whose `hoi` class is `c`, capped at
  one, and it is kept only when box `i` is labelled 49 and `i ≠ j` (the product with two truth values);
  the pairs are laid out row-major, pair `p = 128 * i + j`.
-/
import Idealize.ShloMosaic.PureOps.Ideal
import Idealize.ShloMosaic.Lib.ValueIdx

noncomputable section

namespace Cert.Spec

open Idealize.ShloMosaic Idealize.ShloMosaic.ValueIdx

/-- A truth bit as the number 0 or 1. -/
def tf (b : BitVec 1) : EReal := ((b.toNat : ℝ) : EReal)

/-- Zero, one half and one, as the float words the programs spell. -/
abbrev Z : EReal := Ideal.ofBits .f32 0x00000000#32
abbrev H : EReal := Ideal.ofBits .f32 0x3F000000#32
abbrev O : EReal := Ideal.ofBits .f32 0x3F800000#32

/-- Intersection over union of the boxes `(a0, a1, a2, a3)` and `(b0, b1, b2, b3)`, corners `(x0, y0, x1, y1)`:
    the overlap's width and height clipped at zero, their product over the two areas' sum less that product. -/
def iou (a0 a1 a2 a3 b0 b1 b2 b3 : EReal) : EReal :=
  Ideal.div (max Z (min a2 b2 - max a0 b0) * max Z (min a3 b3 - max a1 b1))
    ((a2 - a0) * (a3 - a1) + (b2 - b0) * (b3 - b1)
      - max Z (min a2 b2 - max a0 b0) * max Z (min a3 b3 - max a1 b1))

abbrev SBoxes : Shape := ⟨3, ![8, 128, 4]⟩
abbrev SCand : Shape := ⟨3, ![8, 32, 4]⟩
abbrev SDet : Shape := ⟨2, ![8, 128]⟩
abbrev SHoi : Shape := ⟨2, ![8, 32]⟩
abbrev SOut : Shape := ⟨3, ![8, 16384, 600]⟩

section
variable (boxes : SBoxes.Idx → EReal) (bh bo : SCand.Idx → EReal) (det : SDet.Idx → BitVec 32) (hoi : SHoi.Idx → BitVec 32)

/-- Box `i` of batch entry `b` against candidate `m` of an array of candidate boxes. -/
def iouAt (cand : SCand.Idx → EReal) (b : Fin 8) (i : Fin 128) (m : Fin 32) : EReal :=
  iou (boxes (ix3 b i (0 : Fin 4))) (boxes (ix3 b i (1 : Fin 4))) (boxes (ix3 b i (2 : Fin 4))) (boxes (ix3 b i (3 : Fin 4)))
    (cand (ix3 b m (0 : Fin 4))) (cand (ix3 b m (1 : Fin 4))) (cand (ix3 b m (2 : Fin 4))) (cand (ix3 b m (3 : Fin 4)))

/-- Candidate `m` matches the pair `(i, j)`: the smaller overlap is at least one half. -/
def matchv (b : Fin 8) (i j : Fin 128) (m : Fin 32) : EReal :=
  tf (Ideal.cmp .oge (min (iouAt boxes bh b i m) (iouAt boxes bo b j m)) H)

/-- Candidate `m` has class `c`. -/
def onehot (b : Fin 8) (m : Fin 32) (c : Fin 600) : EReal :=
  tf (IntOp.cmpi .eq (hoi (ix2 b m)) (BitVec.ofNat 32 c.val))

/-- The pair counts: box `i` is labelled 49, and `j` is another box. -/
def valid (b : Fin 8) (i j : Fin 128) : EReal :=
  tf (IntOp.cmpi .eq (det (ix2 b i)) 49#32) * tf (IntOp.cmpi .ne (BitVec.ofNat 32 j.val) (BitVec.ofNat 32 i.val))

/-- The label of class `c` for the pair `(i, j)` of batch entry `b`. -/
def labels (b : Fin 8) (i j : Fin 128) (c : Fin 600) : EReal :=
  min (∑ m : Fin 32, matchv boxes bh bo b i j m * onehot hoi b m c) O * valid det b i j

/-- The labels with the pairs laid out row-major: pair `p` is `(p / 128, p % 128)`. -/
def labelsFlat : SOut.Idx → EReal := fun x =>
  labels boxes bh bo det hoi (x 0)
    ⟨(x 1).val / 128, by have h : (x 1).val < 16384 := (x 1).isLt; omega⟩
    ⟨(x 1).val % 128, Nat.mod_lt _ (by decide)⟩ (x 2)

end

/-! ## Truth bits -/

/-- A truth bit widened to a word and read as a signed integer is the bit. -/
theorem tf_of_setWidth_toInt (b : BitVec 1) : (((b.setWidth 32).toInt : ℝ) : EReal) = tf b := by
  have h : (b.setWidth 32).toInt = (b.toNat : ℤ) := by revert b; decide
  unfold tf; rw [h]; norm_cast

/-- The conjunction of two truth bits is the product of their numbers. -/
theorem tf_and (a b : BitVec 1) : tf (a &&& b) = tf a * tf b := by
  unfold tf
  have h : (a &&& b).toNat = a.toNat * b.toNat := by revert a b; decide
  rw [h, Nat.cast_mul, EReal.coe_mul]

/-- "Differs" does not depend on the order of the two words. -/
theorem cmpi_ne_comm {w : Nat} (x y : BitVec w) : IntOp.cmpi .ne x y = IntOp.cmpi .ne y x := by
  show BitVec.ofBool (x != y) = BitVec.ofBool (y != x)
  rw [bne_comm]

end Cert.Spec

end
-- ==== Proof.KerPieces.lean ====
/-
  What one grid point's body leaves in the output block, slab by slab.

  The body's loop runs four trips; trip `k` stores ONE slab — rows `(·, k, ·, ·)` of the [8, 4, 128, 600] block —
  whose value is the body's arithmetic of: the loop-invariant overlaps with `boxes_o`, `boxes_h`, row `k` of the
  point's block of transposed boxes, `hoi`, row `k` of the point's block of transposed labels, and the two words
  `4 * point` and `k`. The four slabs tile the block, so the block read at `(b, k, j, c)` is slab `k` at `(b, 0, j, c)`.
-/
import proofs.«144945_j77309411760_2_alg».proof.Proof.Gen.KernelIdeal.Frame
import proofs.«144945_j77309411760_2_alg».proof.Proof.Spec
import Idealize.ShloMosaic.Lib.Pipeline.Value
import Idealize.ShloMosaic.Lib.ValueIdx

set_option maxRecDepth 16384

noncomputable section

namespace Cert.KerValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Trip `k` of the loop writes exactly one piece: the slab at row `k`, holding the body's stored value of the
    values bound before the loop, the trip's counter, and the trip's two row loads. -/
theorem tripL_eq (𝒱 : Variants) (bd : Option 𝒱.V) (c : Dev nD) (i : grid0.Coords) (arg1 : Memref sig .tc .vmem S4x8x4 .f32) (harg1 : arg1.IsWhole) (arg2 : Memref sig .tc .vmem S8x128x4 .f32) (harg2 : arg2.IsWhole) (arg3 : Memref sig .tc .vmem S8x32x4 .f32) (harg3 : arg3.IsWhole) (arg4 : Memref sig .tc .vmem S8x32x4 .f32) (harg4 : arg4.IsWhole) (arg5 : Memref sig .tc .vmem S4x8x1 .i32) (harg5 : arg5.IsWhole) (arg6 : Memref sig .tc .vmem S8x32 .i32) (harg6 : arg6.IsWhole) (arg7 : Memref sig .tc .vmem S8x4x128x600 .f32) (harg7 : arg7.IsWhole) (v0 : BitVec 32) (v49 : FVec F S8x128x32 .f32) (v50 : Vec F S8x32 .i32) (v59 : Vec F S8x32x4 .f32) (X_arg1 : BufTy.Contents (Elt F) arg1.view.ty) (X_arg5 : BufTy.Contents (Elt F) arg5.view.ty) (k : Fin k0_t1_loop.trips) :
    tripL_k0_t1 (F := F) 𝒱 c bd i arg1 harg1 arg2 harg2 arg3 harg3 arg4 harg4 arg5 harg5 arg6 harg6 arg7 harg7 v0 v49 v50 v59 X_arg1 X_arg5 k
      = [⟨Rect.unit (s := S8x4x128x600) (k0_off3 k) S8x1x128x600.size (k0_off3_inb k),
          k0_pay1 v0 v50 (Scf.iv 0#32 1#32 k.val)
            (k0_pay2 v49 v59 (View.readAt (Elt F) arg1.view (Rect.unit (s := S4x8x4) (k0_off1 k) S1x8x4.size (k0_off1_inb k)).toLoadRect X_arg1))
            (View.readAt (Elt F) arg5.view (Rect.unit (s := S4x8x1) (k0_off2 k) S1x8x1.size (k0_off2_inb k)).toLoadRect X_arg5)⟩] := by
  unfold tripL_k0_t1 trip_k0_t1
  dsimp only
  unfold trip_k0_t1.sl.arg8 trip_k0_t1.sl.r
  rfl

/-- Every piece accumulated over the first `n` trips is some trip's piece. -/
theorem mem_pb (𝒱 : Variants) (bd : Option 𝒱.V) (c : Dev nD) (i : grid0.Coords) (arg1 : Memref sig .tc .vmem S4x8x4 .f32) (harg1 : arg1.IsWhole) (arg2 : Memref sig .tc .vmem S8x128x4 .f32) (harg2 : arg2.IsWhole) (arg3 : Memref sig .tc .vmem S8x32x4 .f32) (harg3 : arg3.IsWhole) (arg4 : Memref sig .tc .vmem S8x32x4 .f32) (harg4 : arg4.IsWhole) (arg5 : Memref sig .tc .vmem S4x8x1 .i32) (harg5 : arg5.IsWhole) (arg6 : Memref sig .tc .vmem S8x32 .i32) (harg6 : arg6.IsWhole) (arg7 : Memref sig .tc .vmem S8x4x128x600 .f32) (harg7 : arg7.IsWhole) (v0 : BitVec 32) (v49 : FVec F S8x128x32 .f32) (v50 : Vec F S8x32 .i32) (v59 : Vec F S8x32x4 .f32) (X_arg1 : BufTy.Contents (Elt F) arg1.view.ty) (X_arg5 : BufTy.Contents (Elt F) arg5.view.ty) (p : View.Piece (Elt F) S8x4x128x600 .f32) :
    ∀ n : ℕ, p ∈ pb_k0_t1 (F := F) 𝒱 c bd i arg1 harg1 arg2 harg2 arg3 harg3 arg4 harg4 arg5 harg5 arg6 harg6 arg7 harg7 v0 v49 v50 v59 X_arg1 X_arg5 n →
      ∃ k : Fin k0_t1_loop.trips, p ∈ tripL_k0_t1 (F := F) 𝒱 c bd i arg1 harg1 arg2 harg2 arg3 harg3 arg4 harg4 arg5 harg5 arg6 harg6 arg7 harg7 v0 v49 v50 v59 X_arg1 X_arg5 k
  | 0, h => by rw [pb_k0_t1.eq_1] at h; exact absurd h List.not_mem_nil
  | n + 1, h => by
    rw [pb_k0_t1.eq_2] at h
    unfold pb_k0_t1Step at h
    split at h
    · rename_i hn
      rcases List.mem_append.mp h with h | h
      · exact ⟨⟨n, hn⟩, h⟩
      · exact mem_pb 𝒱 bd c i arg1 harg1 arg2 harg2 arg3 harg3 arg4 harg4 arg5 harg5 arg6 harg6 arg7 harg7 v0 v49 v50 v59 X_arg1 X_arg5 p n h
    · exact mem_pb 𝒱 bd c i arg1 harg1 arg2 harg2 arg3 harg3 arg4 harg4 arg5 harg5 arg6 harg6 arg7 harg7 v0 v49 v50 v59 X_arg1 X_arg5 p n h

/-- The pieces the body's run leaves in the output block are the loop's, accumulated over all its trips, from the
    loop-entry values: the word `4 * point`, the overlaps with `boxes_o`, `hoi` and `boxes_h` as loaded whole. -/
theorem run_pieces (c : Dev nD) (i : grid0.Coords) (arg1 : Memref sig .tc .vmem S4x8x4 .f32) (harg1 : arg1.IsWhole) (arg2 : Memref sig .tc .vmem S8x128x4 .f32) (harg2 : arg2.IsWhole) (arg3 : Memref sig .tc .vmem S8x32x4 .f32) (harg3 : arg3.IsWhole) (arg4 : Memref sig .tc .vmem S8x32x4 .f32) (harg4 : arg4.IsWhole) (arg5 : Memref sig .tc .vmem S4x8x1 .i32) (harg5 : arg5.IsWhole) (arg6 : Memref sig .tc .vmem S8x32 .i32) (harg6 : arg6.IsWhole) (arg7 : Memref sig .tc .vmem S8x4x128x600 .f32) (harg7 : arg7.IsWhole) (x0 : Vec F S4x8x4 .f32) (x1 : Vec F S8x128x4 .f32) (x2 : Vec F S8x32x4 .f32) (x3 : Vec F S8x32x4 .f32) (x4 : Vec F S4x8x1 .i32) (x5 : Vec F S8x32 .i32) :
    (kernelRun0_A (F := F) c i arg1 harg1 arg2 harg2 arg3 harg3 arg4 harg4 arg5 harg5 arg6 harg6 arg7 harg7 x0 x1 x2 x3 x4 x5).1
      = pb_k0_t1 (F := F) Variants.none c none i arg1 harg1 arg2 harg2 arg3 harg3 arg4 harg4 arg5 harg5 arg6 harg6 arg7 harg7
          (Scalar.muli (BitVec.ofNat 32 (i 0).val) 4#32)
          (k0_pay3 (View.readAt (Elt F) arg2.view (Rect.unit (s := S8x128x4) ![0, 0, 0] S8x128x4.size inb_S8x128x4_S8x128x4_0_0_0).toLoadRect (harg2.unread x1))
            (View.readAt (Elt F) arg4.view (Rect.unit (s := S8x32x4) ![0, 0, 0] S8x32x4.size inb_S8x32x4_S8x32x4_0_0_0).toLoadRect (harg4.unread x3)))
          (View.readAt (Elt F) arg6.view (Rect.unit (s := S8x32) ![0, 0] S8x32.size inb_S8x32_S8x32_0_0).toLoadRect (harg6.unread x5))
          (View.readAt (Elt F) arg3.view (Rect.unit (s := S8x32x4) ![0, 0, 0] S8x32x4.size inb_S8x32x4_S8x32x4_0_0_0).toLoadRect (harg3.unread x2))
          (harg1.unread x0) (harg5.unread x4) k0_t1_loop.trips := by
  unfold kernelRun0_A
  dsimp only
  unfold kernelRun0_A.sl.v0 kernelRun0_A.sl.r
  rfl

end Cert.KerValue
end
-- ==== Proof.KerIndex.lean ====
/-
  Where the body's row loads and slab stores sit, and the word that names a row.

  Trip `k` of the body's loop loads row `k` of the point's [4, 8, 4] block of boxes and row `k` of its [4, 8, 1] block of
  labels, and stores rows `(·, k, ·, ·)` of the [8, 4, 128, 600] output block. At grid point `t` the body names the
  box it is working on by the 32-bit word `4 * t + k`, computed as `t * 4` plus the loop counter `0 + k * 1`.
-/
import proofs.«144945_j77309411760_2_alg».proof.Proof.Gen.KernelIdeal.Frame
import Idealize.ShloMosaic.Lib.Pipeline.Value
import Idealize.ShloMosaic.Lib.ValueIdx

set_option maxRecDepth 16384

noncomputable section

namespace Cert.KerValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

/-- The loop runs four trips. -/
theorem trips_eq : k0_t1_loop.trips = 4 := by decide

/-- A trip as a row number. -/
abbrev rowOf (k : Fin k0_t1_loop.trips) : Fin 4 := ⟨k.val, Nat.lt_of_lt_of_le k.isLt (Nat.le_of_eq trips_eq)⟩

/-- Row `k` of the [4, 8, 4] block: local index `(0, b, q)` sits at `(k, b, q)`. -/
theorem row_boxes_idx (k : Fin k0_t1_loop.trips) (b : Fin 8) (q : Fin 4) :
    (Rect.unit (s := S4x8x4) (k0_off1 k) S1x8x4.size (k0_off1_inb k)).toLoadRect.idx (ix3 (0 : Fin 1) b q) = ix3 (rowOf k) b q := by
  funext a; apply Fin.ext
  match a with
  | ⟨0, _⟩ => rw [LoadRect.idx_apply]; simp [Rect.unit, k0_off1_eq k]
  | ⟨1, _⟩ => rw [LoadRect.idx_apply]; simp [Rect.unit, k0_off1_eq k]
  | ⟨2, _⟩ => rw [LoadRect.idx_apply]; simp [Rect.unit, k0_off1_eq k]

/-- Row `k` of the [4, 8, 1] block: local index `(0, b, 0)` sits at `(k, b, 0)`. -/
theorem row_labels_idx (k : Fin k0_t1_loop.trips) (b : Fin 8) :
    (Rect.unit (s := S4x8x1) (k0_off2 k) S1x8x1.size (k0_off2_inb k)).toLoadRect.idx (ix3 (0 : Fin 1) b (0 : Fin 1)) = ix3 (rowOf k) b (0 : Fin 1) := by
  funext a; apply Fin.ext
  match a with
  | ⟨0, _⟩ => rw [LoadRect.idx_apply]; simp [Rect.unit, k0_off2_eq k]
  | ⟨1, _⟩ => rw [LoadRect.idx_apply]; simp [Rect.unit, k0_off2_eq k]
  | ⟨2, _⟩ => rw [LoadRect.idx_apply]; simp [Rect.unit, k0_off2_eq k]

/-- Slab `k` of the output block: local index `(b, 0, j, c)` sits at `(b, k, j, c)`. -/
theorem slab_emb (k : Fin k0_t1_loop.trips) (b : Fin 8) (j : Fin 128) (cc : Fin 600) :
    (Rect.unit (s := S8x4x128x600) (k0_off3 k) S8x1x128x600.size (k0_off3_inb k)).emb (ix4 b (0 : Fin 1) j cc) = ix4 b (rowOf k) j cc := by
  funext a; apply Fin.ext
  match a with
  | ⟨0, _⟩ => rw [Rect.emb_apply]; simp [Rect.unit, k0_off3_eq k]
  | ⟨1, _⟩ => rw [Rect.emb_apply]; simp [Rect.unit, k0_off3_eq k]
  | ⟨2, _⟩ => rw [Rect.emb_apply]; simp [Rect.unit, k0_off3_eq k]
  | ⟨3, _⟩ => rw [Rect.emb_apply]; simp [Rect.unit, k0_off3_eq k]

/-- A local index of a slab is `(b, 0, j, c)`: its second axis has one coordinate. -/
theorem slab_local (x : (⟨4, ![8, 1, 128, 600]⟩ : Shape).Idx) : x = ix4 (x 0) (0 : Fin 1) (x 2) (x 3) := by
  have h := eq_ix4 x
  have h1 : x 1 = (0 : Fin 1) := Fin.fin_one_eq_zero (x 1 : Fin 1)
  rw [h1] at h; exact h

/-- The word `t * 4 + (0 + k * 1)` is the word of the number `4 * t + k`. -/
theorem row_word (t k : ℕ) :
    Scalar.addi (Scalar.muli (BitVec.ofNat 32 t) 4#32) (Scf.iv 0#32 1#32 k) = BitVec.ofNat 32 (4 * t + k) := by
  unfold Scalar.addi Scalar.muli IntOp.addi IntOp.muli Scf.iv
  rw [BitVec.zero_add, BitVec.mul_one, show (4#32 : BitVec 32) = BitVec.ofNat 32 4 from rfl, ← BitVec.ofNat_mul, ← BitVec.ofNat_add, Nat.mul_comm]

end Cert.KerValue
end
-- ==== Proof.PayLayout.lean ====
/-
  Layout operations read at an index given by coordinates: the unit-axis shape casts, last-axis slices and
  unit-axis broadcasts that the box-overlap kernel's values pass through. Each lemma reads one operation at an index
  written by its coordinates as the operand at the index written by its coordinates; every shape cast is justified by
  the equality of the two row-major positions, every slice and broadcast axis by axis.
-/
import Idealize.ShloMosaic.Lib.ValueLayout

namespace Cert.KerPay

open Idealize.ShloMosaic Idealize.ShloMosaic.ValueIdx

variable {α : Type}

/-! ## Shape casts that add or drop a unit axis -/

/-- An \`[a, b, c]\` array cast to \`[a, b, 1, c]\` reads, at \`(i, j, u, k)\`, the operand at \`(i, j, k)\`. -/
theorem shapeCast_abc_ab1c_apply {a b c : ℕ} (x : (⟨3, ![a, b, c]⟩ : Shape).Idx → α)
    (h : (⟨3, ![a, b, c]⟩ : Shape).ShapeCasts ⟨4, ![a, b, 1, c]⟩) (i : Fin a) (j : Fin b) (u : Fin 1) (k : Fin c) :
    shapeCast ⟨4, ![a, b, 1, c]⟩ x h (ix4 i j u k) = x (ix3 i j k) :=
  shapeCast_apply x h _ _ (by
    have hu : u.val = 0 := by omega
    rw [Shape.rowMajor_val_four, Shape.rowMajor_val_three]
    show (i.val * b + j.val) * c + k.val = ((i.val * b + j.val) * 1 + u.val) * c + k.val
    rw [hu, Nat.mul_one, Nat.add_zero])

/-- An \`[a, b, c]\` array cast to \`[a, 1, b, c]\` reads, at \`(i, u, j, k)\`, the operand at \`(i, j, k)\`. -/
theorem shapeCast_abc_a1bc_apply {a b c : ℕ} (x : (⟨3, ![a, b, c]⟩ : Shape).Idx → α)
    (h : (⟨3, ![a, b, c]⟩ : Shape).ShapeCasts ⟨4, ![a, 1, b, c]⟩) (i : Fin a) (u : Fin 1) (j : Fin b) (k : Fin c) :
    shapeCast ⟨4, ![a, 1, b, c]⟩ x h (ix4 i u j k) = x (ix3 i j k) :=
  shapeCast_apply x h _ _ (by
    have hu : u.val = 0 := by omega
    rw [Shape.rowMajor_val_four, Shape.rowMajor_val_three]
    show (i.val * b + j.val) * c + k.val = ((i.val * 1 + u.val) * b + j.val) * c + k.val
    rw [hu, Nat.mul_one, Nat.add_zero])

/-- An \`[a, b, c, 1]\` array cast to \`[a, b, c]\` reads, at \`(i, j, k)\`, the operand at \`(i, j, k, 0)\`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An \`[a, b, 1]\` array cast to \`[a, b]\` reads, at \`(i, j)\`, the operand at \`(i, j, 0)\`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An \`[a, b]\` array cast to \`[a, b, 1]\` reads, at \`(i, j, u)\`, the operand at \`(i, j)\`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An \`[a, b]\` array cast to \`[a, 1, b]\` reads, at \`(i, u, j)\`, the operand at \`(i, j)\`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A \`[1, a, 1]\` array cast to \`[a]\` reads, at \`i\`, the operand at \`(0, i, 0)\`. -/
theorem shapeCast_1a1_a_apply {a : ℕ} (x : (⟨3, ![1, a, 1]⟩ : Shape).Idx → α)
    (h : (⟨3, ![1, a, 1]⟩ : Shape).ShapeCasts ⟨1, ![a]⟩) (i : Fin a) :
    shapeCast ⟨1, ![a]⟩ x h (ix1 i) = x (ix3 (0 : Fin 1) i (0 : Fin 1)) :=
  shapeCast_apply x h _ _ (by
    rw [Shape.rowMajor_val_three, Shape.rowMajor_val_one]
    show (0 * a + i.val) * 1 + 0 = i.val
    rw [Nat.zero_mul, Nat.zero_add, Nat.mul_one, Nat.add_zero])

/-- An \`[a]\` array cast to \`[a, 1]\` reads, at \`(i, u)\`, the operand at \`i\`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Slices along the last axis -/

/-- A rank-4 array cut along its last axis from \`o\` reads, at \`(a, b, c, j)\`, the source at \`(a, b, c, k)\` with
\`k = o + j\`. -/
theorem slice4_axis3_apply {n0 n1 n2 n3 m : ℕ} (o : ℕ) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) (k : Fin n3) (hk : k.val = o + j.val) :
    extractStridedSlice ⟨4, ![n0, n1, n2, m]⟩ ![0, 0, 0, o] X h (ix4 a b c j) = X (ix4 a b c k) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => exact hk)

/-- A rank-3 array cut along its last axis from \`o\` reads, at \`(a, b, j)\`, the source at \`(a, b, k)\` with
\`k = o + j\`. -/
theorem slice3_axis2_apply {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) (k : Fin n2) (hk : k.val = o + j.val) :
    extractStridedSlice ⟨3, ![n0, n1, m]⟩ ![0, 0, o] X h (ix3 a b j) = X (ix3 a b k) :=
  extractStridedSlice_apply _ _ _ _ _ (fun ax => by
    match ax with
    | ⟨0, _⟩ => exact (Nat.zero_add _).symm
    | ⟨1, _⟩ => exact (Nat.zero_add _).symm
    | ⟨2, _⟩ => exact hk)

/-- \`slice4_axis3_apply\` with the source coordinate written out. -/
theorem slice4_axis3_eq {n0 n1 n2 n3 m : ℕ} (o : ℕ) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, Nat.lt_of_lt_of_le (Nat.add_lt_add_left j.isLt o) (h.2 3)⟩) :=
  slice4_axis3_apply o X h a b c j _ rfl

/-- \`slice3_axis2_apply\` with the source coordinate written out. -/
theorem slice3_axis2_eq {n0 n1 n2 m : ℕ} (o : ℕ) (X : (⟨3, ![n0, n1, n2]⟩ : Shape).Idx → α)
    (h : (⟨3, ![n0, n1, n2]⟩ : Shape).Slices ![0, 0, o] ⟨3, ![n0, n1, m]⟩)
    (a : Fin n0) (b : Fin n1) (j : Fin m) :
    extractStridedSlice ⟨3, ![n0, n1, m]⟩ ![0, 0, o] X h (ix3 a b j)
      = X (ix3 a b ⟨o + j.val, Nat.lt_of_lt_of_le (Nat.add_lt_add_left j.isLt o) (h.2 2)⟩) :=
  slice3_axis2_apply o X h a b j _ rfl

/-! ## Broadcasts along a unit axis -/

/-- A coordinate is what a broadcast reads on its axis: itself, or \`0\` when the axis has one element. -/
theorem coord_eq_bcast {n : ℕ} (i : Fin n) : i.val = if n = 1 then 0 else i.val := by
  split
  · have := i.isLt; omega
  · rfl

/-- An \`[a, b, 1, d]\` array broadcast to \`[a, b, c, d]\` reads, at \`(i, j, m, k)\`, the operand at \`(i, j, 0, k)\`. -/
theorem broadcastTo_ab1d_abcd_apply {a b c d : ℕ} (v : (⟨4, ![a, b, 1, d]⟩ : Shape).Idx → α)
    (h : (⟨4, ![a, b, 1, d]⟩ : Shape).Broadcasts ⟨4, ![a, b, c, d]⟩) (i : Fin a) (j : Fin b) (m : Fin c) (k : Fin d) :
    broadcastTo ⟨4, ![a, b, c, d]⟩ v h (ix4 i j m k) = v (ix4 i j (0 : Fin 1) k) := by
  refine broadcastTo_apply v h (ix4 i j m k) (ix4 i j (0 : Fin 1) k) fun ax => ?_
  match ax with
  | ⟨0, _⟩ => exact coord_eq_bcast i
  | ⟨1, _⟩ => exact coord_eq_bcast j
  | ⟨2, _⟩ => rfl
  | ⟨3, _⟩ => exact coord_eq_bcast k

/-- An \`[a, 1, c, d]\` array broadcast to \`[a, b, c, d]\` reads, at \`(i, j, m, k)\`, the operand at \`(i, 0, m, k)\`. -/
theorem broadcastTo_a1cd_abcd_apply {a b c d : ℕ} (v : (⟨4, ![a, 1, c, d]⟩ : Shape).Idx → α)
    (h : (⟨4, ![a, 1, c, d]⟩ : Shape).Broadcasts ⟨4, ![a, b, c, d]⟩) (i : Fin a) (j : Fin b) (m : Fin c) (k : Fin d) :
    broadcastTo ⟨4, ![a, b, c, d]⟩ v h (ix4 i j m k) = v (ix4 i (0 : Fin 1) m k) := by
  refine broadcastTo_apply v h (ix4 i j m k) (ix4 i (0 : Fin 1) m k) fun ax => ?_
  match ax with
  | ⟨0, _⟩ => exact coord_eq_bcast i
  | ⟨1, _⟩ => rfl
  | ⟨2, _⟩ => exact coord_eq_bcast m
  | ⟨3, _⟩ => exact coord_eq_bcast k

/-- An \`[a, b, 1]\` array broadcast to \`[a, b, c]\` reads, at \`(i, j, m)\`, the operand at \`(i, j, 0)\`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (m : Fin c) :
    broadcastTo ⟨3, ![a, b, c]⟩ v h (ix3 i j m) = v (ix3 i j (0 : Fin 1)) := by
  refine broadcastTo_apply v h (ix3 i j m) (ix3 i j (0 : Fin 1)) fun ax => ?_
  match ax with
  | ⟨0, _⟩ => exact coord_eq_bcast i
  | ⟨1, _⟩ => exact coord_eq_bcast j
  | ⟨2, _⟩ => rfl

/-- An \`[a, 1, c]\` array broadcast to \`[a, b, c]\` reads, at \`(i, j, m)\`, the operand at \`(i, 0, m)\`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (m : Fin c) :
    broadcastTo ⟨3, ![a, b, c]⟩ v h (ix3 i j m) = v (ix3 i (0 : Fin 1) m) := by
  refine broadcastTo_apply v h (ix3 i j m) (ix3 i (0 : Fin 1) m) fun ax => ?_
  match ax with
  | ⟨0, _⟩ => exact coord_eq_bcast i
  | ⟨1, _⟩ => rfl
  | ⟨2, _⟩ => exact coord_eq_bcast m

/-- A \`[1, 1, c]\` array broadcast to \`[a, b, c]\` reads, at \`(i, j, m)\`, the operand at \`(0, 0, m)\`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (m : Fin c) :
    broadcastTo ⟨3, ![a, b, c]⟩ v h (ix3 i j m) = v (ix3 (0 : Fin 1) (0 : Fin 1) m) := by
  refine broadcastTo_apply v h (ix3 i j m) (ix3 (0 : Fin 1) (0 : Fin 1) m) fun ax => ?_
  match ax with
  | ⟨0, _⟩ => rfl
  | ⟨1, _⟩ => rfl
  | ⟨2, _⟩ => exact coord_eq_bcast m

/-- An \`[a, 1]\` array broadcast to \`[a, b]\` reads, at \`(i, j)\`, the operand at \`(i, 0)\`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ => exact coord_eq_bcast i
  | ⟨1, _⟩ => rfl

end Cert.KerPay
-- ==== Proof.PayIou.lean ====
/-
  The kernel's first value read at an index: the overlap ratio (intersection over union) of box `j` of the
  first array with candidate box `m` of the second, for batch entry `b`, on the extended reals.
-/
import proofs.«144945_j77309411760_2_alg».proof.Proof.Gen.KernelIdeal.Skeleton
import proofs.«144945_j77309411760_2_alg».proof.Proof.Spec
import proofs.«144945_j77309411760_2_alg».proof.Proof.PayLayout

noncomputable section

namespace Cert.KerPay

open Idealize.ShloMosaic Idealize.ShloMosaic.ValueIdx Cert.KernelIdeal Cert.KernelIdeal.Gen

/-- The overlap ratio of every box of the first array with every candidate box of the second: the product of the
    clipped width and height of the intersection (coordinates 2 and 3 against 0 and 1 of the last axis), over the sum of
    the two areas less that product. Every layout operation reads one coordinate of an operand; the pointwise
    operations are the extended reals' own. -/
theorem pay3_apply (v1 : Vec Ideal S8x128x4 .f32) (v3 : Vec Ideal S8x32x4 .f32) (b : Fin 8) (j : Fin 128) (m : Fin 32) :
    k0_pay3 (F := Ideal) v1 v3 (ix3 b j m) = Cert.Spec.iouAt v1 v3 b j m := by
  unfold k0_pay3
  simp only [divf_apply, subf_apply, addf_apply, mulf_apply, maximumf_apply, minimumf_apply, broadcast_apply,
    broadcastTo_ab1_abc_apply, broadcastTo_a1c_abc_apply, shapeCast_abc1_abc_apply, slice4_axis3_eq,
    broadcastTo_ab1d_abcd_apply, broadcastTo_a1cd_abcd_apply, shapeCast_abc_ab1c_apply, shapeCast_abc_a1bc_apply]
  rfl

end Cert.KerPay

end
-- ==== Proof.PayMatch.lean ====
/-
  The kernel's match mask read at an index: candidate `m` matches box `j` for the row's box when the smaller of
  the two overlap ratios is at least one half; the mask holds that truth value as the number 0 or 1.
-/
import proofs.«144945_j77309411760_2_alg».proof.Proof.Gen.KernelIdeal.Skeleton
import proofs.«144945_j77309411760_2_alg».proof.Proof.Spec
import proofs.«144945_j77309411760_2_alg».proof.Proof.PayLayout

noncomputable section

namespace Cert.KerPay

open Idealize.ShloMosaic Idealize.ShloMosaic.ValueIdx Cert.KernelIdeal Cert.KernelIdeal.Gen

/-- The match mask at \`(b, j, m)\`: the overlap ratio of the one row's box \`b\` with candidate \`m\` — the same clipped
    product over the areas' sum less the product, read through the row's unit axes —, the smaller of it and the given
    ratio compared with one half, and the truth bit widened to a word and converted: the bit as the number 0 or 1
    (the narrowing to the shorter float format changes nothing on the extended reals). -/
theorem pay2_apply (v49 : FVec Ideal S8x128x32 .f32) (v59 : Vec Ideal S8x32x4 .f32) (v64 : Vec Ideal S1x8x4 .f32)
    (b : Fin 8) (j : Fin 128) (m : Fin 32) :
    k0_pay2 (F := Ideal) v49 v59 v64 (ix3 b j m)
      = Cert.Spec.tf (Ideal.cmp .oge (min (Cert.Spec.iou
          (v64 (ix3 (0 : Fin 1) b (0 : Fin 4))) (v64 (ix3 (0 : Fin 1) b (1 : Fin 4)))
          (v64 (ix3 (0 : Fin 1) b (2 : Fin 4))) (v64 (ix3 (0 : Fin 1) b (3 : Fin 4)))
          (v59 (ix3 b m (0 : Fin 4))) (v59 (ix3 b m (1 : Fin 4))) (v59 (ix3 b m (2 : Fin 4))) (v59 (ix3 b m (3 : Fin 4))))
          (v49 (ix3 b j m))) Cert.Spec.H) := by
  unfold k0_pay2
  simp only [truncf_apply, sitofp_apply, extui_apply, cmpf_apply, divf_apply, subf_apply, addf_apply, mulf_apply,
    maximumf_apply, minimumf_apply, broadcast_apply, broadcastTo_a1c_abc_apply, shapeCast_ab_a1b_apply,
    broadcastTo_a1_ab_apply, shapeCast_ab1_ab_apply, slice3_axis2_eq, shapeCast_1ab_ab_apply, shapeCast_self]
  exact Cert.Spec.tf_of_setWidth_toInt _

end Cert.KerPay

end
-- ==== Proof.PaySlab.lean ====
/-
  The kernel's stored slab read at an index: per class the number of matching candidates of that class, capped at
  one, kept only when the row's box is labelled 49 and is not the column's box. The count is a matrix product of the
  match mask with the candidates' class indicators, read here as the plain sum over the candidates.
-/
import proofs.«144945_j77309411760_2_alg».proof.Proof.Gen.KernelIdeal.Skeleton
import proofs.«144945_j77309411760_2_alg».proof.Proof.Spec
import proofs.«144945_j77309411760_2_alg».proof.Proof.PayLayout
import Idealize.ShloMosaic.PureOps.Ideal.Laws

noncomputable section

namespace Cert.KerPay

open Idealize.ShloMosaic Idealize.ShloMosaic.ValueIdx Cert.KernelIdeal Cert.KernelIdeal.Gen

/-- An integer comparison at an index compares the elements. -/
theorem cmpi_apply {s : Shape} {w : Nat} (p : CmpIPredicate) (x y : IVec s w) (i : s.Idx) :
    cmpi p x y i = IntOp.cmpi p (x i) (y i) := rfl

/-- A truth bit widened to a word and converted to a float is the bit as the number 0 or 1. -/
theorem sitofp_bit (bit : BitVec 1) : FloatOps.sitofp (F := Ideal) .f32 (bit.setWidth 32) = Cert.Spec.tf bit :=
  Cert.Spec.tf_of_setWidth_toInt bit

/-- The class counter along the last axis of \`[1, 1, 600]\` reads its last coordinate. -/
theorem iota_class_apply (h : S1x1x600.Iotas .tc 32 [2]) (u v : Fin 1) (c : Fin 600) :
    iota .tc S1x1x600 32 [2] h (ix3 u v c) = BitVec.ofNat 32 c.val :=
  iota_single_apply .tc S1x1x600 32 2 h (ix3 u v c)

/-- The box counter along the last axis of \`[1, 128]\` reads its last coordinate. -/
theorem iota_box_apply (h : S1x128.Iotas .tc 32 [1]) (u : Fin 1) (j : Fin 128) :
    iota .tc S1x128 32 [1] h (ix2 u j) = BitVec.ofNat 32 j.val :=
  iota_single_apply .tc S1x128 32 1 h (ix2 u j)

/-! ## The contraction: batch axis 0, the candidates' axis summed -/

/-- The kernel's dimension numbers: \`[8, 128, 32] × [8, 32, 600] → [8, 128, 600]\`, batch axis 0 of both, axis 2 of the
    left operand contracted with axis 1 of the right. -/
abbrev slabDot := dot_S8x128x32_S8x32x600_S8x128x600_2_1_1_2_0_0

theorem lhs_0 (i : S8x128x600.Idx) (q : slabDot.contr.Idx) : (slabDot.lhsIdx i q 0).val = (i 0).val := by
  unfold DotDims.lhsIdx
  rw [dif_pos (show (0 : Fin S8x128x32.rank) ∈ slabDot.lhsBatch by decide)]
  rfl
theorem lhs_1 (i : S8x128x600.Idx) (q : slabDot.contr.Idx) : (slabDot.lhsIdx i q 1).val = (i 1).val := by
  unfold DotDims.lhsIdx
  rw [dif_neg (show ¬(1 : Fin S8x128x32.rank) ∈ slabDot.lhsBatch by decide),
    dif_pos (show (1 : Fin S8x128x32.rank) ∈ slabDot.lhsNonContracting by decide)]
  rfl
theorem lhs_2 (i : S8x128x600.Idx) (q : slabDot.contr.Idx) : (slabDot.lhsIdx i q 2).val = (q ⟨0, by decide⟩).val :=
  slabDot.lhsIdx_val_of_single rfl i q
theorem rhs_0 (i : S8x128x600.Idx) (q : slabDot.contr.Idx) : (slabDot.rhsIdx i q 0).val = (i 0).val := by
  unfold DotDims.rhsIdx
  rw [dif_pos (show (0 : Fin S8x32x600.rank) ∈ slabDot.rhsBatch by decide)]
  rfl
theorem rhs_1 (i : S8x128x600.Idx) (q : slabDot.contr.Idx) : (slabDot.rhsIdx i q 1).val = (q ⟨0, by decide⟩).val :=
  slabDot.rhsIdx_val_of_single rfl i q
theorem rhs_2 (i : S8x128x600.Idx) (q : slabDot.contr.Idx) : (slabDot.rhsIdx i q 2).val = (i 2).val := by
  unfold DotDims.rhsIdx
  rw [dif_neg (show ¬(2 : Fin S8x32x600.rank) ∈ slabDot.rhsBatch by decide),
    dif_pos (show (2 : Fin S8x32x600.rank) ∈ slabDot.rhsNonContracting by decide)]
  rfl

/-- The matrix product into the zero accumulator, read at \`(b, j, c)\`: the sum over the candidates \`m\` of the left
    operand at \`(b, j, m)\` times the right operand at \`(b, m, c)\` — the contraction index is its one coordinate. -/
theorem matmul_ix (lhs : FVec Ideal S8x128x32 .bf16) (rhs : FVec Ideal S8x32x600 .bf16) (b : Fin 8) (j : Fin 128) (c : Fin 600) :
    matmul slabDot none lhs rhs (constant S8x128x600 .f32 0x00000000#32) (ix3 b j c)
      = ∑ m : Fin 32, lhs (ix3 b j m) * rhs (ix3 b m c) := by
  show FloatOps.matmul slabDot none lhs rhs (constant S8x128x600 .f32 0x00000000#32) (ix3 b j c) = _
  rw [Idealize.ShloMosaic.Ideal.matmul_constant_zero_apply, ← Equiv.sum_comp (contrEquiv1 slabDot 32 rfl rfl).symm]
  refine Finset.sum_congr rfl fun k _ => ?_
  have hk := contrEquiv1_symm_val slabDot 32 rfl rfl k
  have el : slabDot.lhsIdx (ix3 b j c) ((contrEquiv1 slabDot 32 rfl rfl).symm k) = ix3 b j k := funext fun a => Fin.ext (by
    match a with
    | ⟨0, _⟩ => exact lhs_0 _ _
    | ⟨1, _⟩ => exact lhs_1 _ _
    | ⟨2, _⟩ => exact (lhs_2 _ _).trans hk)
  have er : slabDot.rhsIdx (ix3 b j c) ((contrEquiv1 slabDot 32 rfl rfl).symm k) = ix3 b k c := funext fun a => Fin.ext (by
    match a with
    | ⟨0, _⟩ => exact rhs_0 _ _
    | ⟨1, _⟩ => exact (rhs_1 _ _).trans hk
    | ⟨2, _⟩ => exact rhs_2 _ _)
  rw [el, er]

/-! ## The stored slab -/

/-- The stored slab at \`(b, 0, j, c)\`: the number of matching candidates of class \`c\` (the match mask times the
    class indicator of each candidate, summed over the candidates), capped at one, times the two truth values
    "the row's label is 49" and "box \`j\` is not the row's box" — each truth bit widened and converted is the number 0 or
    1, and the counters read their coordinate. -/
theorem pay1_apply (v0 arg8 : BitVec 32) (v50 : Vec Ideal S8x32 .i32) (v117 : FVec Ideal S8x128x32 .bf16)
    (v122 : Vec Ideal S1x8x1 .i32) (b : Fin 8) (j : Fin 128) (c : Fin 600) :
    k0_pay1 (F := Ideal) v0 v50 arg8 v117 v122 (ix4 b (0 : Fin 1) j c)
      = min (∑ m : Fin 32, v117 (ix3 b j m) * Cert.Spec.onehot v50 b m c) Cert.Spec.O
        * (Cert.Spec.tf (IntOp.cmpi .eq (v122 (ix3 (0 : Fin 1) b (0 : Fin 1))) 49#32)
          * Cert.Spec.tf (IntOp.cmpi .ne (BitVec.ofNat 32 j.val) (Scalar.addi v0 arg8))) := by
  unfold k0_pay1
  simp only [shapeCast_abc_a1bc_apply, mulf_apply, minimumf_apply, broadcast_apply, matmul_ix,
    broadcastTo_ab1_abc_apply, shapeCast_ab_ab1_apply, broadcastTo_a1_ab_apply, shapeCast_a_a1_apply,
    sitofp_apply, extui_apply, cmpi_apply, shapeCast_1a1_a_apply, shapeCast_self, broadcastTo_1b_ab_apply,
    shapeCast_a_1a_apply, shapeCast_1a_a_apply, truncf_apply, broadcastTo_11c_abc_apply, sitofp_bit]
  rw [iota_class_apply, iota_box_apply]
  rfl

end Cert.KerPay

end
-- ==== Proof.PayLabels.lean ====
/-
  The three values composed: the slab the kernel stores for the row's box `i`, computed from the arrays themselves, is
  the specification's label function at `(b, i, j, c)` — given that the row read is box `i`'s corners and label and the
  row counter is `i`.
-/
import proofs.«144945_j77309411760_2_alg».proof.Proof.PayIou
import proofs.«144945_j77309411760_2_alg».proof.Proof.PayMatch
import proofs.«144945_j77309411760_2_alg».proof.Proof.PaySlab

noncomputable section

namespace Cert.KerPay

open Idealize.ShloMosaic Idealize.ShloMosaic.ValueIdx Cert.KernelIdeal Cert.KernelIdeal.Gen

/-- With the row of corners `v64` holding box `i` of every batch entry, the row of labels `v122` holding box `i`'s label
    and the row counter equal to `i`, the stored slab at `(b, 0, j, c)` is the label of class `c` for the pair `(i, j)`:
    the overlap ratios, the match mask and the capped count substitute into one another. -/
theorem slab_eq_labels (boxes : Vec Ideal S8x128x4 .f32) (bh bo : Vec Ideal S8x32x4 .f32)
    (det : Cert.Spec.SDet.Idx → BitVec 32) (hoi : Vec Ideal S8x32 .i32) (v64 : Vec Ideal S1x8x4 .f32)
    (v122 : Vec Ideal S1x8x1 .i32) (v0 arg8 : BitVec 32) (i : Fin 128)
    (h64 : ∀ (b : Fin 8) (k : Fin 4), v64 (ix3 (0 : Fin 1) b k) = boxes (ix3 b i k))
    (h122 : ∀ b : Fin 8, v122 (ix3 (0 : Fin 1) b (0 : Fin 1)) = det (ix2 b i))
    (hi : Scalar.addi v0 arg8 = BitVec.ofNat 32 i.val) (b : Fin 8) (j : Fin 128) (c : Fin 600) :
    k0_pay1 (F := Ideal) v0 hoi arg8 (k0_pay2 (F := Ideal) (k0_pay3 (F := Ideal) boxes bo) bh v64) v122
        (ix4 b (0 : Fin 1) j c)
      = Cert.Spec.labels boxes bh bo det hoi b i j c := by
  rw [pay1_apply]
  simp only [pay2_apply, pay3_apply, h64, h122, hi]
  rfl

end Cert.KerPay

end
-- ==== Proof.KerBlock.lean ====
/-
  The output block a grid point leaves is a block of the specification's labels.

  Suppose the point's [4, 8, 4] block of transposed boxes holds, in row `r`, box `row r` of every batch entry, its
  [4, 8, 1] block of transposed labels that box's label, the whole-array windows the arrays `boxes`, `boxes_h`,
  `boxes_o`, `hoi`, and the word `4 * point + r` is `row r`'s. Then entry `(b, r, j, c)` of the [8, 4, 128, 600] block
  the body leaves is the label of class `c` for the pair `(row r, j)` of batch entry `b`: the body's loop stores four
  slabs, slab `k` holds that function on rows `(·, k, ·, ·)`, and the slabs cover the block.
-/
import proofs.«144945_j77309411760_2_alg».proof.Proof.KerPieces
import proofs.«144945_j77309411760_2_alg».proof.Proof.KerIndex
import proofs.«144945_j77309411760_2_alg».proof.Proof.PayLabels

set_option maxRecDepth 16384

noncomputable section

namespace Cert.KerValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KerPay

theorem zeros2 : (![0, 0] : Fin 2 → ℕ) = fun _ => 0 := funext fun a => by fin_cases a <;> rfl
theorem zeros3 : (![0, 0, 0] : Fin 3 → ℕ) = fun _ => 0 := funext fun a => by fin_cases a <;> rfl

/-- What the body leaves in the output block, under the hypotheses above on the point's input blocks. -/
theorem out_block (c : Dev nD) (i : grid0.Coords) (arg1 : Memref sig .tc .vmem S4x8x4 .f32) (harg1 : arg1.IsWhole) (arg2 : Memref sig .tc .vmem S8x128x4 .f32) (harg2 : arg2.IsWhole) (arg3 : Memref sig .tc .vmem S8x32x4 .f32) (harg3 : arg3.IsWhole) (arg4 : Memref sig .tc .vmem S8x32x4 .f32) (harg4 : arg4.IsWhole) (arg5 : Memref sig .tc .vmem S4x8x1 .i32) (harg5 : arg5.IsWhole) (arg6 : Memref sig .tc .vmem S8x32 .i32) (harg6 : arg6.IsWhole) (arg7 : Memref sig .tc .vmem S8x4x128x600 .f32) (harg7 : arg7.IsWhole)
    (x0 : Vec Ideal S4x8x4 .f32) (x1 : Vec Ideal S8x128x4 .f32) (x2 : Vec Ideal S8x32x4 .f32) (x3 : Vec Ideal S8x32x4 .f32) (x4 : Vec Ideal S4x8x1 .i32) (x5 : Vec Ideal S8x32 .i32)
    (boxes : Vec Ideal S8x128x4 .f32) (bh bo : Vec Ideal S8x32x4 .f32) (det : Cert.Spec.SDet.Idx → BitVec 32) (hoi : Vec Ideal S8x32 .i32)
    (row : Fin 4 → Fin 128)
    (h1 : x1 = boxes) (h2 : x2 = bh) (h3 : x3 = bo) (h5 : x5 = hoi)
    (h0 : ∀ (r : Fin 4) (b : Fin 8) (q : Fin 4), x0 (ix3 r b q) = boxes (ix3 b (row r) q))
    (h4 : ∀ (r : Fin 4) (b : Fin 8), x4 (ix3 r b (0 : Fin 1)) = det (ix2 b (row r)))
    (hw : ∀ r : Fin 4, BitVec.ofNat 32 (4 * (i 0).val + r.val) = BitVec.ofNat 32 (row r).val) :
    out0_A_6 (F := Ideal) c i arg1 harg1 arg2 harg2 arg3 harg3 arg4 harg4 arg5 harg5 arg6 harg6 arg7 harg7 x0 x1 x2 x3 x4 x5
      = fun y : S8x4x128x600.Idx => Cert.Spec.labels boxes bh bo det hoi (y 0) (row (y 1)) (y 2) (y 3) := by
  unfold out0_A_6
  rw [View.read_writes_eq_canon _ _ _ (cover0_A_6 (F := Ideal) c i arg1 harg1 arg2 harg2 arg3 harg3 arg4 harg4 arg5 harg5 arg6 harg6 arg7 harg7 x0 x1 x2 x3 x4 x5)]
  funext y
  refine View.canon_apply_of_pieces (fun y : S8x4x128x600.Idx => Cert.Spec.labels boxes bh bo det hoi (y 0) (row (y 1)) (y 2) (y 3)) _ ?_ y
    (cover0_A_6 (F := Ideal) c i arg1 harg1 arg2 harg2 arg3 harg3 arg4 harg4 arg5 harg5 arg6 harg6 arg7 harg7 x0 x1 x2 x3 x4 x5 y)
  intro p hp x
  rw [run_pieces] at hp
  obtain ⟨k, hk⟩ := mem_pb _ _ _ _ _ _ _ _ _ _ _ _ _ _ _ _ _ _ _ _ _ _ _ _ p _ hp
  rw [tripL_eq] at hk
  obtain rfl := List.mem_singleton.mp hk
  -- the whole-array loads read the arrays
  have e2 : View.readAt (Elt Ideal) arg2.view (Rect.unit (s := S8x128x4) ![0, 0, 0] S8x128x4.size inb_S8x128x4_S8x128x4_0_0_0).toLoadRect (harg2.unread x1) = boxes := by
    rw [View.readAt_eq_ld, harg2.read_unread, View.ld_unit_zero (S := S8x128x4) zeros3]; exact h1
  have e3 : View.readAt (Elt Ideal) arg3.view (Rect.unit (s := S8x32x4) ![0, 0, 0] S8x32x4.size inb_S8x32x4_S8x32x4_0_0_0).toLoadRect (harg3.unread x2) = bh := by
    rw [View.readAt_eq_ld, harg3.read_unread, View.ld_unit_zero (S := S8x32x4) zeros3]; exact h2
  have e4 : View.readAt (Elt Ideal) arg4.view (Rect.unit (s := S8x32x4) ![0, 0, 0] S8x32x4.size inb_S8x32x4_S8x32x4_0_0_0).toLoadRect (harg4.unread x3) = bo := by
    rw [View.readAt_eq_ld, harg4.read_unread, View.ld_unit_zero (S := S8x32x4) zeros3]; exact h3
  have e6 : View.readAt (Elt Ideal) arg6.view (Rect.unit (s := S8x32) ![0, 0] S8x32.size inb_S8x32_S8x32_0_0).toLoadRect (harg6.unread x5) = hoi := by
    rw [View.readAt_eq_ld, harg6.read_unread, View.ld_unit_zero (S := S8x32) zeros2]; exact h5
  -- the two row loads read row `k`
  have e1 : ∀ (b : Fin 8) (q : Fin 4),
      View.readAt (Elt Ideal) arg1.view (Rect.unit (s := S4x8x4) (k0_off1 k) S1x8x4.size (k0_off1_inb k)).toLoadRect (harg1.unread x0) (ix3 (0 : Fin 1) b q)
        = boxes (ix3 b (row (rowOf k)) q) := fun b q => by
    rw [View.readAt_eq_ld, harg1.read_unread]
    show x0 ((Rect.unit (s := S4x8x4) (k0_off1 k) S1x8x4.size (k0_off1_inb k)).toLoadRect.idx (ix3 (0 : Fin 1) b q)) = _
    rw [row_boxes_idx]; exact h0 _ b q
  have e5 : ∀ b : Fin 8,
      View.readAt (Elt Ideal) arg5.view (Rect.unit (s := S4x8x1) (k0_off2 k) S1x8x1.size (k0_off2_inb k)).toLoadRect (harg5.unread x4) (ix3 (0 : Fin 1) b (0 : Fin 1))
        = det (ix2 b (row (rowOf k))) := fun b => by
    rw [View.readAt_eq_ld, harg5.read_unread]
    show x4 ((Rect.unit (s := S4x8x1) (k0_off2 k) S1x8x1.size (k0_off2_inb k)).toLoadRect.idx (ix3 (0 : Fin 1) b (0 : Fin 1))) = _
    rw [row_labels_idx]; exact h4 _ b
  have ew : Scalar.addi (Scalar.muli (BitVec.ofNat 32 (i 0).val) 4#32) (Scf.iv 0#32 1#32 k.val) = BitVec.ofNat 32 (row (rowOf k)).val := by
    rw [row_word]; exact hw (rowOf k)
  rw [e2, e3, e4, e6, slab_local x]
  have em := slab_emb k (x 0) (x 2) (x 3)
  exact (slab_eq_labels boxes bh bo det hoi _ _ _ _ (row (rowOf k)) e1 e5 ew (x 0) (x 2) (x 3)).trans
    (congrArg (fun y : S8x4x128x600.Idx => Cert.Spec.labels boxes bh bo det hoi (y 0) (row (y 1)) (y 2) (y 3)) em).symm

end Cert.KerValue
end
-- ==== Proof.KerHost.lean ====
/-
  The host operations around the kernel's region, read as values.

  Before the region the program transposes `boxes` to put the box index first, and transposes `det_labels` and
  gives it a trailing unit axis; after the region it views the four-axis result [8, 128, 128, 600] as
  [8, 16384, 600] (pair `p = 128 * i + j`) and builds the table of index pairs `(p / 128, p % 128)` from two iotas.
-/
import proofs.«144945_j77309411760_2_alg».proof.Proof.Gen.KernelIdeal.Frame
import Idealize.ShloMosaic.Lib.Pipeline.Value
import Idealize.ShloMosaic.Lib.ValueIdx

set_option maxRecDepth 16384

noncomputable section

namespace Cert.KerHost

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- The region finds the transposed boxes in its first window's array. -/
theorem V_main_v0 (c : Dev nD) :
    V m c main_v0 = transpose S128x8x4 [1, 0, 2] (m ((c : Thread nD τ).loc main_arg0)) transposes_S8x128x4_S128x8x4_1_0_2 := by
  show StableHlo.after hostOps0 (fun b => m (c, b)) (Proc.devRef .tc main_v0) = _
  after_results

/-- and the transposed labels, with a trailing unit axis, in its fifth. -/
theorem V_main_v2 (c : Dev nD) :
    V m c main_v2 = broadcastInDim S128x8x1 ![0, 1] bcast_S128x8_S128x8x1_0_1
      (transpose S128x8 [1, 0] (m ((c : Thread nD τ).loc main_arg3)) transposes_S8x128_S128x8_1_0) := by
  show StableHlo.after hostOps0 (fun b => m (c, b)) (Proc.devRef .tc main_v2) = _
  after_results

/-- The table of index pairs the program returns: column 0 is `p / 128`, column 1 is `p % 128`, both from an iota
    broadcast along one axis of a [128, 128] square and flattened. -/
def pairTable : (⟨S16384x2, .i32⟩ : BufTy).Contents (Elt F) :=
  concatenate S16384x2 1
    [⟨S16384x1, (broadcastInDim S16384x1 ![0] bcast_S16384_S16384x1_0 (shapeCast _ (broadcastInDim S128x128 ![0] bcast_S128_S128x128_0 (iotaInDim S128 32 0)) shapeCasts_S128x128_S16384))⟩,
     ⟨S16384x1, (broadcastInDim S16384x1 ![0] bcast_S16384_S16384x1_0 (shapeCast _ (broadcastInDim S128x128 ![1] bcast_S128_S128x128_1 (iotaInDim S128 32 0)) shapeCasts_S128x128_S16384))⟩]
    concatenates_S16384x1_S16384x1_S16384x2_d1

/-- After the region the first result is that table, -/
theorem tail_main_v13 (c : Dev nD) :
    Pipeline.afterTail₀ cfgs (dats m) 0 (V0 m) [hostOps1] c main_v13 = pairTable (F := F) := by
  unfold Pipeline.afterTail₀
  show StableHlo.after hostOps1 _ (Proc.devRef .tc main_v13) = _
  after_results; rfl

/-- and the second the region's output array viewed with the two box axes flattened into one. -/
theorem tail_main_v4 (c : Dev nD) :
    Pipeline.afterTail₀ cfgs (dats m) 0 (V0 m) [hostOps1] c main_v4
      = shapeCast S8x16384x600 ((dats m 0 c).arrAt 6 cfg0.N) shapeCasts_S8x128x128x600_S8x16384x600 := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3)
      = (dats m 0 c).arrAt 6 cfg0.N := Pipeline.withArrays_arr spec0 launch0.win.arr_inj c _ _ 6
  rw [e]
  rfl

end Cert.KerHost
end
-- ==== Proof.WinBlocks.lean ====
/-
  The pipeline's windows read as values. The grid is one axis of 32 points; point `t` works on the four boxes
  `4 t … 4 t + 3`. Two windows move with the point: the boxes with the box axis first, and the labels likewise (each
  a block of four rows of an array the host operations before the region make from an argument). Four windows are whole
  argument arrays at every point. The output window's block at `t` is rows `4 t … 4 t + 3` of the second axis of the
  output array, and the 32 blocks cover it.
-/
import proofs.«144945_j77309411760_2_alg».proof.Proof.Gen.KernelIdeal.Frame
import proofs.«144945_j77309411760_2_alg».proof.Proof.KerHost
import Idealize.ShloMosaic.Lib.Pipeline.Value
import Idealize.ShloMosaic.Lib.ValueIdx

set_option maxRecDepth 16384

noncomputable section

namespace Cert.KerWin

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ)

/-- Box \`4 t + r\`: row \`r\` of the block of four boxes the grid point \`t\` works on. -/
def rowAt (t : Fin cfg0.N) (r : Fin 4) : Fin 128 :=
  ⟨4 * t.val + r.val, by have h : t.val < 32 := lt_of_lt_of_eq t.isLt N_0; have := r.isLt; omega⟩

/-! ## The transposed boxes: window 0 -/

/-- Window 0's block index at point \`t\` is \`(t, 0, 0)\` (decided over the 32 points). -/
theorem idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)

/-- Element \`(r, b, q)\` of the block at \`t\` sits at \`(4 t + r, b, q)\` of the \`[128, 8, 4]\` array. -/
theorem emb0 (t : Fin cfg0.N) (r : Fin 4) (b : Fin 8) (q : Fin 4) :
    ((cfg0.win 0).blk t).view.emb (ix3 r b q) = ix3 (rowAt t r) b q := by
  obtain ⟨e0, e1, e2⟩ := idx_facts0 t
  funext a; apply Fin.ext
  match a with
  | ⟨0, _⟩ => show win0_0.index t (0 : Fin 3) * 4 + 1 * r.val = 4 * t.val + r.val; omega
  | ⟨1, _⟩ => show win0_0.index t (1 : Fin 3) * 8 + 1 * b.val = b.val; omega
  | ⟨2, _⟩ => show win0_0.index t (2 : Fin 3) * 4 + 1 * q.val = q.val; omega

/-- Row \`r\` of window 0's block at \`t\` is box \`4 t + r\` of every batch entry: the array is the boxes with the box
    axis moved first. -/
theorem win0_boxes (c : Dev nD) (t : Fin cfg0.N) (r : Fin 4) (b : Fin 8) (q : Fin 4) :
    iblk m c 0 t (ix3 r b q) = m ((c : Thread nD τ).loc main_arg0) (ix3 b (rowAt t r) q) := by
  unfold iblk
  rw [View.read_apply, emb0]
  show V m c main_v0 (ix3 (rowAt t r) b q) = _
  rw [Cert.KerHost.V_main_v0]
  exact transpose_apply _ _ _ (ix3 (rowAt t r) b q) (ix3 b (rowAt t r) q)
    fun a => match a with | ⟨0, _⟩ => rfl | ⟨1, _⟩ => rfl | ⟨2, _⟩ => rfl

/-! ## The transposed labels: window 4 -/

/-- Window 4's block index at point \`t\` is \`(t, 0, 0)\`. -/
theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)

/-- Element \`(r, b, u)\` of the block at \`t\` sits at \`(4 t + r, b, u)\` of the \`[128, 8, 1]\` array. -/
theorem emb4 (t : Fin cfg0.N) (r : Fin 4) (b : Fin 8) (u : Fin 1) :
    ((cfg0.win 4).blk t).view.emb (ix3 r b u) = ix3 (rowAt t r) b u := by
  obtain ⟨e0, e1, e2⟩ := idx_facts4 t
  funext a; apply Fin.ext
  match a with
  | ⟨0, _⟩ => show win0_4.index t (0 : Fin 3) * 4 + 1 * r.val = 4 * t.val + r.val; omega
  | ⟨1, _⟩ => show win0_4.index t (1 : Fin 3) * 8 + 1 * b.val = b.val; omega
  | ⟨2, _⟩ => show win0_4.index t (2 : Fin 3) * 1 + 1 * u.val = u.val; omega

/-- Row \`r\` of window 4's block at \`t\` is the label of box \`4 t + r\` of every batch entry: the array is the labels
    transposed, with a trailing unit axis. -/
theorem win4_labels (c : Dev nD) (t : Fin cfg0.N) (r : Fin 4) (b : Fin 8) :
    iblk m c 4 t (ix3 r b (0 : Fin 1)) = m ((c : Thread nD τ).loc main_arg3) (ix2 b (rowAt t r)) := by
  unfold iblk
  rw [View.read_apply, emb4]
  show V m c main_v2 (ix3 (rowAt t r) b (0 : Fin 1)) = _
  rw [Cert.KerHost.V_main_v2]
  refine (broadcastInDim_apply _ _ _ (ix3 (rowAt t r) b (0 : Fin 1)) (ix2 (rowAt t r) b) fun a => ?_).trans ?_
  · match a with
    | ⟨0, _⟩ => rfl
    | ⟨1, _⟩ => rfl
  · exact transpose_apply _ _ _ (ix2 (rowAt t r) b) (ix2 b (rowAt t r))
      fun a => match a with | ⟨0, _⟩ => rfl | ⟨1, _⟩ => rfl

/-! ## The whole arrays: windows 1, 2, 3 and 5 -/

/-- Window 1's block index is \`(0, 0, 0)\` at every point: the block is the whole array. -/
theorem idx_facts1 : ∀ t : Fin cfg0.N, win0_1.index t (0 : Fin 3) = 0 ∧ win0_1.index t (1 : Fin 3) = 0
    ∧ win0_1.index t (2 : Fin 3) = 0 :=
  (by decide +kernel : ∀ t : Fin grid0.N, _)
/-- Window 2's likewise. -/
theorem idx_facts2 : ∀ t : Fin cfg0.N, win0_2.index t (0 : Fin 3) = 0 ∧ win0_2.index t (1 : Fin 3) = 0
    ∧ win0_2.index t (2 : Fin 3) = 0 :=
  (by decide +kernel : ∀ t : Fin grid0.N, _)
/-- Window 3's likewise. -/
theorem idx_facts3 : ∀ t : Fin cfg0.N, win0_3.index t (0 : Fin 3) = 0 ∧ win0_3.index t (1 : Fin 3) = 0
    ∧ win0_3.index t (2 : Fin 3) = 0 :=
  (by decide +kernel : ∀ t : Fin grid0.N, _)
/-- Window 5's likewise, on its two axes. -/
theorem idx_facts5 : ∀ t : Fin cfg0.N, win0_5.index t (0 : Fin 2) = 0 ∧ win0_5.index t (1 : Fin 2) = 0 :=
  (by decide +kernel : ∀ t : Fin grid0.N, _)

/-- Window 1's block at any point is the boxes as launched. -/
theorem win1_eq (c : Dev nD) (t : Fin cfg0.N) : iblk m c 1 t = m ((c : Thread nD τ).loc main_arg0) := by
  obtain ⟨e0, e1, e2⟩ := idx_facts1 t
  funext y
  unfold iblk
  rw [View.read_apply]
  have he : ((cfg0.win 1).blk t).view.emb y = y := by
    funext a; apply Fin.ext
    match a with
    | ⟨0, _⟩ => show win0_1.index t (0 : Fin 3) * 8 + 1 * (y 0).val = (y 0).val; omega
    | ⟨1, _⟩ => show win0_1.index t (1 : Fin 3) * 128 + 1 * (y 1).val = (y 1).val; omega
    | ⟨2, _⟩ => show win0_1.index t (2 : Fin 3) * 4 + 1 * (y 2).val = (y 2).val; omega
  rw [he]
  show V m c main_arg0 y = _
  rw [V_main_arg0]

/-- Window 2's block at any point is the first candidate boxes as launched. -/
theorem win2_eq (c : Dev nD) (t : Fin cfg0.N) : iblk m c 2 t = m ((c : Thread nD τ).loc main_arg1) := by
  obtain ⟨e0, e1, e2⟩ := idx_facts2 t
  funext y
  unfold iblk
  rw [View.read_apply]
  have he : ((cfg0.win 2).blk t).view.emb y = y := by
    funext a; apply Fin.ext
    match a with
    | ⟨0, _⟩ => show win0_2.index t (0 : Fin 3) * 8 + 1 * (y 0).val = (y 0).val; omega
    | ⟨1, _⟩ => show win0_2.index t (1 : Fin 3) * 32 + 1 * (y 1).val = (y 1).val; omega
    | ⟨2, _⟩ => show win0_2.index t (2 : Fin 3) * 4 + 1 * (y 2).val = (y 2).val; omega
  rw [he]
  show V m c main_arg1 y = _
  rw [V_main_arg1]

/-- Window 3's block at any point is the second candidate boxes as launched. -/
theorem win3_eq (c : Dev nD) (t : Fin cfg0.N) : iblk m c 3 t = m ((c : Thread nD τ).loc main_arg2) := by
  obtain ⟨e0, e1, e2⟩ := idx_facts3 t
  funext y
  unfold iblk
  rw [View.read_apply]
  have he : ((cfg0.win 3).blk t).view.emb y = y := by
    funext a; apply Fin.ext
    match a with
    | ⟨0, _⟩ => show win0_3.index t (0 : Fin 3) * 8 + 1 * (y 0).val = (y 0).val; omega
    | ⟨1, _⟩ => show win0_3.index t (1 : Fin 3) * 32 + 1 * (y 1).val = (y 1).val; omega
    | ⟨2, _⟩ => show win0_3.index t (2 : Fin 3) * 4 + 1 * (y 2).val = (y 2).val; omega
  rw [he]
  show V m c main_arg2 y = _
  rw [V_main_arg2]

/-- Window 5's block at any point is the candidates' classes as launched. -/
theorem win5_eq (c : Dev nD) (t : Fin cfg0.N) : iblk m c 5 t = m ((c : Thread nD τ).loc main_arg4) := by
  obtain ⟨e0, e1⟩ := idx_facts5 t
  funext y
  unfold iblk
  rw [View.read_apply]
  have he : ((cfg0.win 5).blk t).view.emb y = y := by
    funext a; apply Fin.ext
    match a with
    | ⟨0, _⟩ => show win0_5.index t (0 : Fin 2) * 8 + 1 * (y 0).val = (y 0).val; omega
    | ⟨1, _⟩ => show win0_5.index t (1 : Fin 2) * 32 + 1 * (y 1).val = (y 1).val; omega
  rw [he]
  show V m c main_arg4 y = _
  rw [V_main_arg4]

/-! ## The output: window 6 -/

/-- Window 6's block index at point \`t\` is \`(0, t, 0, 0)\`. -/
theorem idx_facts6 : ∀ t : Fin cfg0.N, win0_6.index t (0 : Fin 4) = 0 ∧ win0_6.index t (1 : Fin 4) = t.val
    ∧ win0_6.index t (2 : Fin 4) = 0 ∧ win0_6.index t (3 : Fin 4) = 0 :=
  (by decide +kernel : ∀ t : Fin grid0.N, _)

/-- Element \`(b, r, j, cc)\` of the output block at \`t\` sits at \`(b, 4 t + r, j, cc)\` of the output array. -/
theorem out_emb (t : Fin cfg0.N) (b : Fin 8) (r : Fin 4) (j : Fin 128) (cc : Fin 600) :
    ((cfg0.win 6).blk t).view.emb (ix4 b r j cc) = ix4 b (rowAt t r) j cc := by
  obtain ⟨e0, e1, e2, e3⟩ := idx_facts6 t
  funext a; apply Fin.ext
  match a with
  | ⟨0, _⟩ => show win0_6.index t (0 : Fin 4) * 8 + 1 * b.val = b.val; omega
  | ⟨1, _⟩ => show win0_6.index t (1 : Fin 4) * 4 + 1 * r.val = 4 * t.val + r.val; omega
  | ⟨2, _⟩ => show win0_6.index t (2 : Fin 4) * 128 + 1 * j.val = j.val; omega
  | ⟨3, _⟩ => show win0_6.index t (3 : Fin 4) * 600 + 1 * cc.val = cc.val; omega

/-- An index of the output array is in point \`t\`'s block iff each coordinate is in the block's range on its axis. -/
theorem mem_blk6 (t : Fin cfg0.N) (i : S8x128x128x600.Idx) :
    i ∈ ((cfg0.win 6).blk t).view.set ↔ ∀ a : Fin 4, win0_6.index t a * S8x4x128x600.size a ≤ (i a).val
      ∧ (i a).val < win0_6.index t a * S8x4x128x600.size a + S8x4x128x600.size a := by
  show i ∈ ((View.whole main_v3).slice (win0_6.rect t)).set ↔ _
  rw [View.set_slice_whole, Rect.mem_set_unit]
  exact Iff.rfl

/-- Every index of the output array is in the block some point writes back: the point is its first box over 4. -/
theorem out_cover (i : S8x128x128x600.Idx) :
    ∃ t : Fin cfg0.N, (cfg0.win 6).flush t = true ∧ i ∈ ((cfg0.win 6).blk t).view.set := by
  have hi0 : (i 0).val < 8 := (i 0).isLt
  have hi1 : (i 1).val < 128 := (i 1).isLt
  have hi2 : (i 2).val < 128 := (i 2).isLt
  have hi3 : (i 3).val < 600 := (i 3).isLt
  have hlt : (i 1).val / 4 < cfg0.N := lt_of_lt_of_eq (by omega : (i 1).val / 4 < 32) N_0.symm
  obtain ⟨e0, e1, e2, e3⟩ := idx_facts6 ⟨(i 1).val / 4, hlt⟩
  have e1' : win0_6.index ⟨(i 1).val / 4, hlt⟩ (1 : Fin 4) = (i 1).val / 4 := e1
  refine ⟨⟨(i 1).val / 4, hlt⟩, flush0_6 _, ?_⟩
  rw [mem_blk6]
  intro a
  match a with
  | ⟨0, _⟩ =>
    show win0_6.index ⟨(i 1).val / 4, hlt⟩ (0 : Fin 4) * 8 ≤ (i 0).val
      ∧ (i 0).val < win0_6.index ⟨(i 1).val / 4, hlt⟩ (0 : Fin 4) * 8 + 8
    omega
  | ⟨1, _⟩ =>
    show win0_6.index ⟨(i 1).val / 4, hlt⟩ (1 : Fin 4) * 4 ≤ (i 1).val
      ∧ (i 1).val < win0_6.index ⟨(i 1).val / 4, hlt⟩ (1 : Fin 4) * 4 + 4
    omega
  | ⟨2, _⟩ =>
    show win0_6.index ⟨(i 1).val / 4, hlt⟩ (2 : Fin 4) * 128 ≤ (i 2).val
      ∧ (i 2).val < win0_6.index ⟨(i 1).val / 4, hlt⟩ (2 : Fin 4) * 128 + 128
    omega
  | ⟨3, _⟩ =>
    show win0_6.index ⟨(i 1).val / 4, hlt⟩ (3 : Fin 4) * 600 ≤ (i 3).val
      ∧ (i 3).val < win0_6.index ⟨(i 1).val / 4, hlt⟩ (3 : Fin 4) * 600 + 600
    omega

end Cert.KerWin

end
-- ==== Proof.WinFlat.lean ====
/-
  The pairs laid out row-major: an array indexed by (batch entry, first box, second box, class), reshaped so that the
  two box axes become one axis of pairs, reads pair \`p\` at the boxes \`(p / 128, p % 128)\` — the two row-major
  positions agree because \`128 * (p / 128) + p % 128 = p\`.
-/
import Idealize.ShloMosaic.Lib.Pipeline.Value
import Idealize.ShloMosaic.Lib.ValueIdx

namespace Cert.KerWin

open Idealize.ShloMosaic Idealize.ShloMosaic.ValueIdx

/-- The labels by (batch entry, first box, second box, class) … -/
abbrev S4 : Shape := ⟨4, ![8, 128, 128, 600]⟩
/-- … and by (batch entry, pair, class). -/
abbrev S3 : Shape := ⟨3, ![8, 16384, 600]⟩

/-- A function of the four coordinates, reshaped to three axes, is the function at the pair's two boxes. -/
theorem shapeCast_pairs {α : Type} (L : Fin 8 → Fin 128 → Fin 128 → Fin 600 → α) (h : S4.ShapeCasts S3) :
    shapeCast S3 (fun z : S4.Idx => L (z 0) (z 1) (z 2) (z 3)) h
      = fun x : S3.Idx => L (x 0)
          ⟨(x 1).val / 128, by have h : (x 1).val < 16384 := (x 1).isLt; omega⟩
          ⟨(x 1).val % 128, Nat.mod_lt _ (by decide)⟩ (x 2) := by
  funext x
  have h1 : (x 1).val < 16384 := (x 1).isLt
  refine shapeCast_apply (fun z : S4.Idx => L (z 0) (z 1) (z 2) (z 3)) h x
    (ix4 (x 0 : Fin 8) (⟨(x 1).val / 128, by omega⟩ : Fin 128) (⟨(x 1).val % 128, Nat.mod_lt _ (by decide)⟩ : Fin 128)
      (x 2 : Fin 600)) ?_
  rw [Shape.rowMajor_val_four, Shape.rowMajor_val_three]
  show (((x 0).val * 128 + (x 1).val / 128) * 128 + (x 1).val % 128) * 600 + (x 2).val
    = ((x 0).val * 16384 + (x 1).val) * 600 + (x 2).val
  omega

end Cert.KerWin
-- ==== Proof.KerArray.lean ====
/-
  The kernel's results, as functions of its arguments.

  Every grid point writes back a [8, 4, 128, 600] block of the output array [8, 128, 128, 600]: the labels of the pairs
  whose human box is one of the point's four rows. The 32 blocks tile the array, so it ends holding the label of
  class `c` for the pair `(i, j)` at `(b, i, j, c)`; the host's reshape then lays the pairs out row-major, and the
  table of index pairs is built from iotas alone.
-/
import proofs.«144945_j77309411760_2_alg».proof.Proof.KerBlock
import proofs.«144945_j77309411760_2_alg».proof.Proof.KerHost
import proofs.«144945_j77309411760_2_alg».proof.Proof.WinBlocks
import proofs.«144945_j77309411760_2_alg».proof.Proof.WinFlat

set_option maxRecDepth 16384

noncomputable section

namespace Cert.KerValue

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Cert.KerWin

variable (m : (ℓ : Loc nD τ sig) → Buf (Elt Ideal) ℓ) (ρ : Dev nD → PrngReg)

/-- The labels over the four-axis array: entry `(b, i, j, c)`. -/
def pairLabels (c : Dev nD) : S8x128x128x600.Idx → EReal := fun z =>
  Cert.Spec.labels (m ((c : Thread nD τ).loc main_arg0)) (m ((c : Thread nD τ).loc main_arg1)) (m ((c : Thread nD τ).loc main_arg2)) (m ((c : Thread nD τ).loc main_arg3)) (m ((c : Thread nD τ).loc main_arg4)) (z 0) (z 1) (z 2) (z 3)

/-- A grid point's one coordinate is its number. -/
theorem coords_val : ∀ t : Fin cfg0.N, ((grid0.coords t) 0).val = t.val := (by decide +kernel : ∀ t : Fin grid0.N, _)

/-- What point `t` writes back is block `t` of the labels. -/
theorem flushed_eq (c : Dev nD) (t : Fin cfg0.N) :
    (dats m 0 c).flushed 6 t = ((cfg0.win 6).blk t).view.read (Elt Ideal) (pairLabels m c) := by
  show (cfg0.win 6).cut (grid0.coords t) ((dats m 0 c).after 6 t) = _
  rw [after0_6]
  unfold outsAt0
  rw [out_block c (grid0.coords t) _ _ _ _ _ _ _ _ _ _ _ _ _ _ _ _ _ _ _ _
      (m ((c : Thread nD τ).loc main_arg0)) (m ((c : Thread nD τ).loc main_arg1)) (m ((c : Thread nD τ).loc main_arg2)) (m ((c : Thread nD τ).loc main_arg3)) (m ((c : Thread nD τ).loc main_arg4)) (rowAt t)
      (win1_eq m c t) (win2_eq m c t) (win3_eq m c t) (win5_eq m c t)
      (fun r b q => win0_boxes m c t r b q) (fun r b => win4_labels m c t r b)
      (fun r => by rw [coords_val]; rfl)]
  funext y
  have ey : ((cfg0.win 6).blk t).view.emb y = ix4 (y 0) (rowAt t (y 1)) (y 2) (y 3) :=
    (congrArg (fun z => ((cfg0.win 6).blk t).view.emb z) (eq_ix4 y)).trans (out_emb t (y 0) (y 1) (y 2) (y 3))
  show Cert.Spec.labels (m ((c : Thread nD τ).loc main_arg0)) (m ((c : Thread nD τ).loc main_arg1)) (m ((c : Thread nD τ).loc main_arg2)) (m ((c : Thread nD τ).loc main_arg3)) (m ((c : Thread nD τ).loc main_arg4)) (y 0) (rowAt t (y 1)) (y 2) (y 3) = pairLabels m c (((cfg0.win 6).blk t).view.emb y)
  rw [ey]; rfl

/-- The output array after the run holds the labels. -/
theorem final (c : Dev nD) : (dats m 0 c).arrAt 6 cfg0.N = pairLabels m c :=
  (dats m 0 c).arrAt_eq_of_cover 6 (pairLabels m c) (fun t _ => flushed_eq m c t) out_cover

/-- The kernel's run: the pair table, the labels with the pairs row-major, the arguments unchanged. -/
theorem run : θ_run defs (onTc (τ := τ) (main (F := Ideal))) ⟨m, fun _ => 0, ρ⟩ fun r => ∀ c : Dev nD,
      r.2.mem ((c.tc : Thread nD τ).loc main_v13) = Cert.KerHost.pairTable (F := Ideal)
      ∧ r.2.mem ((c.tc : Thread nD τ).loc main_v4) = Cert.Spec.labelsFlat (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      ((h c).2 main_v13 (Pipeline.mem_restRefs_of main_v13 (by decide) (by decide))).trans (Cert.KerHost.tail_main_v13 m c),
      (((h c).2 main_v4 (Pipeline.mem_restRefs_of main_v4 (by decide) (by decide))).trans (Cert.KerHost.tail_main_v4 m c)).trans (by
        rw [final]; unfold pairLabels Cert.Spec.labelsFlat; exact shapeCast_pairs _ _),
      ((h c).1 1).trans (((dats m 0 c).arrAt_in 1 rfl _).trans ((A_eq m c 1).trans (V_main_arg0 m c))),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (W_main_arg3 m (dats m) c),
      ((h c).1 5).trans (((dats m 0 c).arrAt_in 5 rfl _).trans ((A_eq m c 5).trans (V_main_arg4 m c)))⟩)
    (run_main m ρ)

end Cert.KerValue
end
-- ==== Proof.RefIndex.lean ====
/-
  The reference's index arithmetic, read at an index.

  The reference lists all pairs (i, j) of the 128 boxes row-major, pair p = 128 i + j, as a two-column table
  (column 0 holds p / 128, column 1 holds p % 128), and gathers the label of box p / 128 and the boxes p / 128
  and p % 128 through it. Every table entry is below 128, so the "negative index" select in front of each gather
  keeps the entry and the gather's clamp into [0, 127] is the identity: a gather through column 0 reads row
  p / 128 of its operand, one through column 1 reads row p % 128.

  The file also fixes the vocabulary the later files use to name an index by its coordinates: the coordinates of
  ix1 … ix4 as numbers, "an index with these coordinates is that ixN", and the closing step for an equation
  between two indices (reduce both sides to arithmetic on the coordinates, then linear arithmetic).
-/
import proofs.«144945_j77309411760_2_alg».proof.Proof.Gen.ReferenceIdeal.Read
import proofs.«144945_j77309411760_2_alg».proof.Proof.Spec

noncomputable section

namespace Cert.RefValue

open Cert.ReferenceIdeal Cert.ReferenceIdeal.Gen Cert.ReferenceIdeal.Read Idealize.ShloMosaic Idealize.ShloMosaic.ValueIdx Idealize.ShloMosaic.StableHlo

/-! ## Indices by coordinates -/

section Coords
variable {n0 n1 n2 n3 : Nat}
theorem ix1_v0 (a : Fin n0) : (ix1 a 0).val = a.val := rfl
theorem ix2_v0 (a : Fin n0) (b : Fin n1) : (ix2 a b 0).val = a.val := rfl
theorem ix2_v1 (a : Fin n0) (b : Fin n1) : (ix2 a b 1).val = b.val := rfl
theorem ix3_v0 (a : Fin n0) (b : Fin n1) (c : Fin n2) : (ix3 a b c 0).val = a.val := rfl
theorem ix3_v1 (a : Fin n0) (b : Fin n1) (c : Fin n2) : (ix3 a b c 1).val = b.val := rfl
theorem ix3_v2 (a : Fin n0) (b : Fin n1) (c : Fin n2) : (ix3 a b c 2).val = c.val := rfl
theorem ix4_v0 (a : Fin n0) (b : Fin n1) (c : Fin n2) (d : Fin n3) : (ix4 a b c d 0).val = a.val := rfl
theorem ix4_v1 (a : Fin n0) (b : Fin n1) (c : Fin n2) (d : Fin n3) : (ix4 a b c d 1).val = b.val := rfl
theorem ix4_v2 (a : Fin n0) (b : Fin n1) (c : Fin n2) (d : Fin n3) : (ix4 a b c d 2).val = c.val := rfl
theorem ix4_v3 (a : Fin n0) (b : Fin n1) (c : Fin n2) (d : Fin n3) : (ix4 a b c d 3).val = d.val := rfl

/-- An index of rank 1 with this coordinate is `ix1` of it … -/
theorem ix1_ext (I : (⟨1, ![n0]⟩ : Shape).Idx) (a : Fin n0)
    (h0 : (I ⟨0, (by show (0 : Nat) < 1; omega)⟩).val = a.val) : I = ix1 a := by
  funext e; refine Fin.ext ?_
  match e with
  | ⟨0, _⟩ => exact h0
/-- … and so at rank 2 … -/
theorem ix2_ext (I : (⟨2, ![n0, n1]⟩ : Shape).Idx) (a : Fin n0) (b : Fin n1)
    (h0 : (I ⟨0, (by show (0 : Nat) < 2; omega)⟩).val = a.val) (h1 : (I ⟨1, (by show (1 : Nat) < 2; omega)⟩).val = b.val) :
    I = ix2 a b := by
  funext e; refine Fin.ext ?_
  match e with
  | ⟨0, _⟩ => exact h0
  | ⟨1, _⟩ => exact h1
/-- … rank 3 … -/
theorem ix3_ext (I : (⟨3, ![n0, n1, n2]⟩ : Shape).Idx) (a : Fin n0) (b : Fin n1) (c : Fin n2)
    (h0 : (I ⟨0, (by show (0 : Nat) < 3; omega)⟩).val = a.val) (h1 : (I ⟨1, (by show (1 : Nat) < 3; omega)⟩).val = b.val)
    (h2 : (I ⟨2, (by show (2 : Nat) < 3; omega)⟩).val = c.val) : I = ix3 a b c := by
  funext e; refine Fin.ext ?_
  match e with
  | ⟨0, _⟩ => exact h0
  | ⟨1, _⟩ => exact h1
  | ⟨2, _⟩ => exact h2
/-- … and rank 4. -/
theorem ix4_ext (I : (⟨4, ![n0, n1, n2, n3]⟩ : Shape).Idx) (a : Fin n0) (b : Fin n1) (c : Fin n2) (d : Fin n3)
    (h0 : (I ⟨0, (by show (0 : Nat) < 4; omega)⟩).val = a.val) (h1 : (I ⟨1, (by show (1 : Nat) < 4; omega)⟩).val = b.val)
    (h2 : (I ⟨2, (by show (2 : Nat) < 4; omega)⟩).val = c.val) (h3 : (I ⟨3, (by show (3 : Nat) < 4; omega)⟩).val = d.val) :
    I = ix4 a b c d := by
  funext e; refine Fin.ext ?_
  match e with
  | ⟨0, _⟩ => exact h0
  | ⟨1, _⟩ => exact h1
  | ⟨2, _⟩ => exact h2
  | ⟨3, _⟩ => exact h3
end Coords

/-- One coordinate of an equation between indices: both sides reduced to arithmetic on the named coordinates
    (a reshape's quotients and remainders of the row-major position, a slice's offset), then linear arithmetic. -/
macro "coords" : tactic => `(tactic| (try simp only [ix1_v0, ix2_v0, ix2_v1, ix3_v0, ix3_v1, ix3_v2, ix4_v0, ix4_v1, ix4_v2, ix4_v3]))
macro "idx_arith" : tactic => `(tactic| first | rfl | (dsimp only; coords; omega))
/-- An equation `I = ixN …` between indices, coordinate by coordinate. -/
macro "idx1" : tactic => `(tactic| exact ix1_ext _ _ (by idx_arith))
macro "idx2" : tactic => `(tactic| exact ix2_ext _ _ _ (by idx_arith) (by idx_arith))
macro "idx3" : tactic => `(tactic| exact ix3_ext _ _ _ _ (by idx_arith) (by idx_arith) (by idx_arith))
macro "idx4" : tactic => `(tactic| exact ix4_ext _ _ _ _ _ (by idx_arith) (by idx_arith) (by idx_arith) (by idx_arith))

/-- The "human" box of pair `p`: `p / 128`. -/
abbrev hi (p : Fin 16384) : Fin 128 := ⟨p.val / 128, by have h : p.val < 16384 := p.isLt; omega⟩
/-- The "object" box of pair `p`: `p % 128`. -/
abbrev lo (p : Fin 16384) : Fin 128 := ⟨p.val % 128, Nat.mod_lt _ (by decide)⟩

/-! ## The table of pairs -/

/-- Column 0 of the table of pairs holds `p / 128` (the first piece of the concatenation: the row iota broadcast
    along the columns, flattened). -/
theorem v8_col0 (p : Fin 16384) :
    val_main_v8 (F := Ideal) (ix2 p (0 : Fin 2)) = BitVec.ofNat 32 (p.val / 128) := by
  unfold val_main_v8
  rw [concatenate_pair_apply_left (t := S16384x2) (s₁ := S16384x1) (s₂ := S16384x1) 1 (val_main_v6 (F := Ideal))
    (val_main_v7 (F := Ideal)) _ (ix2 p (0 : Fin 2)) rfl (ix2 p (0 : Fin 1))
    (fun b => match b with | ⟨0, _⟩ => rfl | ⟨1, _⟩ => rfl)]
  rw [val_main_v6_apply, val_main_v4_apply, val_main_v2_apply, val_main_v0_apply]

/-- Column 1 holds `p % 128` (the second piece: the column iota broadcast along the rows, flattened). -/
theorem v8_col1 (p : Fin 16384) :
    val_main_v8 (F := Ideal) (ix2 p (1 : Fin 2)) = BitVec.ofNat 32 (p.val % 128) := by
  unfold val_main_v8
  rw [concatenate_pair_apply_right (t := S16384x2) (s₁ := S16384x1) (s₂ := S16384x1) 1 (val_main_v6 (F := Ideal))
    (val_main_v7 (F := Ideal)) _ (ix2 p (1 : Fin 2)) rfl rfl (ix2 p (0 : Fin 1))
    (fun b => match b with | ⟨0, _⟩ => fun _ => rfl | ⟨1, _⟩ => fun h => absurd rfl h) rfl]
  rw [val_main_v7_apply, val_main_v5_apply, val_main_v3_apply, val_main_v1_apply]

/-- The columns as the flat vectors the program slices out of the table (three copies of column 0, two of column 1). -/
theorem v10_at (p : Fin 16384) : val_main_v10 (F := Ideal) (ix1 p) = BitVec.ofNat 32 (p.val / 128) := by
  rw [val_main_v10_apply, val_main_v9_apply,
    show idx_main_v9 (idx_main_v10 (ix1 p)) = ix2 p (0 : Fin 2) by idx2, v8_col0]
theorem v21_at (p : Fin 16384) : val_main_v21 (F := Ideal) (ix1 p) = BitVec.ofNat 32 (p.val / 128) := by
  rw [val_main_v21_apply, val_main_v20_apply,
    show idx_main_v20 (idx_main_v21 (ix1 p)) = ix2 p (0 : Fin 2) by idx2, v8_col0]
theorem v29_at (p : Fin 16384) : val_main_v29 (F := Ideal) (ix1 p) = BitVec.ofNat 32 (p.val / 128) := by
  rw [val_main_v29_apply, val_main_v28_apply,
    show idx_main_v28 (idx_main_v29 (ix1 p)) = ix2 p (0 : Fin 2) by idx2, v8_col0]
theorem v23_at (p : Fin 16384) : val_main_v23 (F := Ideal) (ix1 p) = BitVec.ofNat 32 (p.val % 128) := by
  rw [val_main_v23_apply, val_main_v22_apply,
    show idx_main_v22 (idx_main_v23 (ix1 p)) = ix2 p (1 : Fin 2) by idx2, v8_col1]
theorem v38_at (p : Fin 16384) : val_main_v38 (F := Ideal) (ix1 p) = BitVec.ofNat 32 (p.val % 128) := by
  rw [val_main_v38_apply, val_main_v37_apply,
    show idx_main_v37 (idx_main_v38 (ix1 p)) = ix2 p (1 : Fin 2) by idx2, v8_col1]

/-! ## Words below 128 -/

/-- A number below 128 written as a 32-bit word reads back, signed, as itself. -/
theorem toInt_ofNat_small (n : Nat) (hn : n < 128) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- Such a word is not negative, so a select on "the index is negative" takes its second branch. -/
theorem select_small {α : Type} (n : Nat) (hn : n < 128) (A B : α) :
    Scalar.select (IntOp.cmpi .slt (BitVec.ofNat 32 n) 0#32) A B = B := by
  have h : IntOp.cmpi .slt (BitVec.ofNat 32 n) 0#32 = 0#1 := by
    show BitVec.ofBool ((BitVec.ofNat 32 n).slt 0#32) = 0#1
    have : (BitVec.ofNat 32 n).slt 0#32 = false := by
      rw [BitVec.slt, toInt_ofNat_small n hn]
      simp
    rw [this]; rfl
  rw [h]; exact select_zero A B

/-- And clamping it into [0, 127] leaves it. -/
theorem clamp_small (n : Nat) (hn : n < 128) : min (BitVec.ofNat 32 n).toInt.toNat 127 = n := by
  rw [toInt_ofNat_small n hn, Int.toNat_natCast]; omega

theorem hi_lt (p : Fin 16384) : p.val / 128 < 128 := by have h : p.val < 16384 := p.isLt; omega
theorem lo_lt (p : Fin 16384) : p.val % 128 < 128 := Nat.mod_lt _ (by decide)

/-! ## The start indices of the three gathers: the column, wrapped if negative (never), as a one-column array -/

theorem v16_at (p : Fin 16384) : val_main_v16 (F := Ideal) (ix2 p (0 : Fin 1)) = BitVec.ofNat 32 (p.val / 128) := by
  rw [val_main_v16_apply, show idx_main_v16 (ix2 p (0 : Fin 1)) = ix1 p by idx1, val_main_v15_apply,
    val_main_v12_apply, val_main_v11_apply, val_main_c_apply, v10_at]
  exact select_small _ (hi_lt p) _ _
theorem v35_at (p : Fin 16384) : val_main_v35 (F := Ideal) (ix2 p (0 : Fin 1)) = BitVec.ofNat 32 (p.val / 128) := by
  rw [val_main_v35_apply, show idx_main_v35 (ix2 p (0 : Fin 1)) = ix1 p by idx1, val_main_v34_apply,
    val_main_v31_apply, val_main_v30_apply, val_main_c_2_apply, v29_at]
  exact select_small _ (hi_lt p) _ _
theorem v44_at (p : Fin 16384) : val_main_v44 (F := Ideal) (ix2 p (0 : Fin 1)) = BitVec.ofNat 32 (p.val % 128) := by
  rw [val_main_v44_apply, show idx_main_v44 (ix2 p (0 : Fin 1)) = ix1 p by idx1, val_main_v43_apply,
    val_main_v40_apply, val_main_v39_apply, val_main_c_4_apply, v38_at]
  exact select_small _ (lo_lt p) _ _

/-! ## A gather of whole rows along axis 1, read at an index

The program's gathers take, for each of the 16384 start indices, the whole slice of the operand at that row of axis 1
(axis 1 collapsed, the other axes offset axes). Result element (b, p[, k]) is the operand at (b, r[, k]) with r the
start index number p, read signed and clamped into [0, 127]. -/

local notation "G2" => gather_S8x128_S16384x1_S8x16384_0_1_n_n_1_1_81
local notation "G3" => gather_S8x128x4_S16384x1_S8x16384x4_02_1_n_n_1_1_814

theorem gather2_at {α : Type} (x : S8x128.Idx → α) (idx : IVec S16384x1 32) (b : Fin 8) (p : Fin 16384) :
    Host.gather G2 x idx (ix2 b p)
      = x (ix2 b ⟨min (idx (ix2 p (0 : Fin 1))).toInt.toNat 127, by omega⟩) := by
  unfold Host.gather
  congr 1
  funext a
  refine Fin.ext ?_
  match a with
  | ⟨0, _⟩ =>
    show GatherDims.start G2 (ix2 b p) idx 0 + GatherDims.batchCoord G2 (ix2 b p) 0 + GatherDims.offCoord G2 (ix2 b p) 0 = b.val
    rw [GatherDims.batchCoord_eq_zero _ _ _ List.not_mem_nil]
    unfold GatherDims.start GatherDims.offCoord
    rw [dif_neg (show ¬ (0 : Fin 2) ∈ (GatherDims.startIndexMap G2) by decide), dif_pos (show (0 : Fin 2) ∈ (GatherDims.sKept G2) by decide)]
    simp only [Nat.add_zero, Nat.zero_add]
    rfl
  | ⟨1, _⟩ =>
    have hsi : GatherDims.siIdx G2 (ix2 b p) ⟨List.idxOf (1 : Fin 2) (GatherDims.startIndexMap G2),
        List.idxOf_lt_length_iff.2 (List.mem_singleton.mpr rfl)⟩ = ix2 p (0 : Fin 1) := by
      funext c; refine Fin.ext ?_
      match c with
      | ⟨0, _⟩ => rfl
      | ⟨1, _⟩ => rfl
    show GatherDims.start G2 (ix2 b p) idx 1 + GatherDims.batchCoord G2 (ix2 b p) 1 + GatherDims.offCoord G2 (ix2 b p) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (GatherDims.startIndexMap G2) from List.mem_singleton.mpr rfl), hsi]
    rfl

theorem gather3_at {α : Type} (x : S8x128x4.Idx → α) (idx : IVec S16384x1 32) (b : Fin 8) (p : Fin 16384) (k : Fin 4) :
    Host.gather G3 x idx (ix3 b p k)
      = x (ix3 b ⟨min (idx (ix2 p (0 : Fin 1))).toInt.toNat 127, by omega⟩ k) := by
  unfold Host.gather
  congr 1
  funext a
  refine Fin.ext ?_
  match a with
  | ⟨0, _⟩ =>
    show GatherDims.start G3 (ix3 b p k) idx 0 + GatherDims.batchCoord G3 (ix3 b p k) 0 + GatherDims.offCoord G3 (ix3 b p k) 0 = b.val
    rw [GatherDims.batchCoord_eq_zero _ _ _ List.not_mem_nil]
    unfold GatherDims.start GatherDims.offCoord
    rw [dif_neg (show ¬ (0 : Fin 3) ∈ (GatherDims.startIndexMap G3) by decide), dif_pos (show (0 : Fin 3) ∈ (GatherDims.sKept G3) by decide)]
    simp only [Nat.add_zero, Nat.zero_add]
    rfl
  | ⟨1, _⟩ =>
    have hsi : GatherDims.siIdx G3 (ix3 b p k) ⟨List.idxOf (1 : Fin 3) (GatherDims.startIndexMap G3),
        List.idxOf_lt_length_iff.2 (List.mem_singleton.mpr rfl)⟩ = ix2 p (0 : Fin 1) := by
      funext c; refine Fin.ext ?_
      match c with
      | ⟨0, _⟩ => rfl
      | ⟨1, _⟩ => rfl
    show GatherDims.start G3 (ix3 b p k) idx 1 + GatherDims.batchCoord G3 (ix3 b p k) 1 + GatherDims.offCoord G3 (ix3 b p k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (GatherDims.startIndexMap G3) from List.mem_singleton.mpr rfl), hsi]
    rfl
  | ⟨2, _⟩ =>
    show GatherDims.start G3 (ix3 b p k) idx 2 + GatherDims.batchCoord G3 (ix3 b p k) 2 + GatherDims.offCoord G3 (ix3 b p k) 2 = k.val
    rw [GatherDims.batchCoord_eq_zero _ _ _ List.not_mem_nil]
    unfold GatherDims.start GatherDims.offCoord
    rw [dif_neg (show ¬ (2 : Fin 3) ∈ (GatherDims.startIndexMap G3) by decide), dif_pos (show (2 : Fin 3) ∈ (GatherDims.sKept G3) by decide)]
    simp only [Nat.add_zero, Nat.zero_add]
    rfl

/-! ## The three gathers -/

/-- The gathered labels: pair `p` reads the label of box `p / 128`. -/
theorem v17_at (x3 : (⟨S8x128, .i32⟩ : BufTy).Contents (Elt Ideal)) (b : Fin 8) (p : Fin 16384) :
    val_main_v17 (F := Ideal) x3 (ix2 b p) = x3 (ix2 b (hi p)) := by
  unfold val_main_v17
  rw [gather2_at]
  refine congrArg x3 (ix2_ext _ _ _ rfl ?_)
  show min (val_main_v16 (F := Ideal) (ix2 p (0 : Fin 1))).toInt.toNat 127 = p.val / 128
  rw [v16_at, clamp_small _ (hi_lt p)]

/-- The "human" boxes: pair `p` reads box `p / 128`. -/
theorem v36_at (x0 : (⟨S8x128x4, .f32⟩ : BufTy).Contents (Elt Ideal)) (b : Fin 8) (p : Fin 16384) (k : Fin 4) :
    val_main_v36 (F := Ideal) x0 (ix3 b p k) = x0 (ix3 b (hi p) k) := by
  unfold val_main_v36
  rw [gather3_at]
  refine congrArg x0 (ix3_ext _ _ _ _ rfl ?_ rfl)
  show min (val_main_v35 (F := Ideal) (ix2 p (0 : Fin 1))).toInt.toNat 127 = p.val / 128
  rw [v35_at, clamp_small _ (hi_lt p)]

/-- The "object" boxes: pair `p` reads box `p % 128`. -/
theorem v45_at (x0 : (⟨S8x128x4, .f32⟩ : BufTy).Contents (Elt Ideal)) (b : Fin 8) (p : Fin 16384) (k : Fin 4) :
    val_main_v45 (F := Ideal) x0 (ix3 b p k) = x0 (ix3 b (lo p) k) := by
  unfold val_main_v45
  rw [gather3_at]
  refine congrArg x0 (ix3_ext _ _ _ _ rfl ?_ rfl)
  show min (val_main_v44 (F := Ideal) (ix2 p (0 : Fin 1))).toInt.toNat 127 = p.val % 128
  rw [v44_at, clamp_small _ (lo_lt p)]

end Cert.RefValue

end
-- ==== Proof.RefValid.lean ====
/-
  The reference's validity mask, read at an index.

  Pair p = 128 i + j counts when box i is labelled 49 and i ≠ j. The reference computes the two truth bits on the
  flat list of pairs (the gathered label of box p / 128 against 49; column 0 of the table of pairs against column 1),
  takes their conjunction, converts it to a float and broadcasts it along the classes. The conjunction of two bits is
  the product of their numbers, and "differs" does not depend on the order of its operands, which gives the
  specification's product of two truth values.
-/
import proofs.«144945_j77309411760_2_alg».proof.Proof.RefIndex

noncomputable section

namespace Cert.RefValue

open Cert.ReferenceIdeal Cert.ReferenceIdeal.Gen Cert.ReferenceIdeal.Read Idealize.ShloMosaic Idealize.ShloMosaic.ValueIdx Idealize.ShloMosaic.StableHlo

/-- The mask at pair `p` of batch entry `b`, for every class `c`. -/
theorem v148_at (x3 : (⟨S8x128, .i32⟩ : BufTy).Contents (Elt Ideal)) (b : Fin 8) (p : Fin 16384) (c : Fin 600) :
    val_main_v148 (F := Ideal) x3 (ix3 b p c) = Cert.Spec.valid x3 b (hi p) (lo p) := by
  rw [val_main_v148_apply, show idx_main_v148 (ix3 b p c) = ix3 b p (0 : Fin 1) by idx3, val_main_v147_apply,
    val_main_v146_apply, show idx_main_v146 (ix3 b p (0 : Fin 1)) = ix2 b p by idx2, val_main_v27_apply,
    val_main_v19_apply, v17_at, val_main_v18_apply, val_main_c_1_apply, val_main_v26_apply, val_main_v25_apply,
    show idx_main_v25 (idx_main_v26 (ix2 b p)) = ix1 p by idx1, val_main_v24_apply, v21_at, v23_at]
  show Cert.Spec.tf (IntOp.cmpi .eq (x3 (ix2 b (hi p))) 49#32 &&& IntOp.cmpi .ne (BitVec.ofNat 32 (p.val / 128)) (BitVec.ofNat 32 (p.val % 128))) = _
  rw [Cert.Spec.tf_and, Cert.Spec.cmpi_ne_comm]
  rfl

end Cert.RefValue

end
-- ==== Proof.RefIouH.lean ====
/-
  The reference's first intersection-over-union, read at an index: the "human" box of each pair (the box gathered
  through column 0 of the table of pairs) against each candidate row of boxes_h.

  The reference computes it on whole arrays: the two boxes' corners are broadcast against each other, the overlap's
  width and height (the smaller upper corner less the larger lower corner, clipped at zero) multiplied, and the
  product divided by the two areas' sum less the product. Read at pair p and candidate m every slice, reshape and
  broadcast only renames an index, so the element is the specification's iou of the eight coordinates.
-/
import proofs.«144945_j77309411760_2_alg».proof.Proof.RefIndex

noncomputable section

namespace Cert.RefValue

open Cert.ReferenceIdeal Cert.ReferenceIdeal.Gen Cert.ReferenceIdeal.Read Idealize.ShloMosaic Idealize.ShloMosaic.ValueIdx Idealize.ShloMosaic.StableHlo

/-! ## The corners, as the overlap's four broadcast slices read them -/

/-- The pair's lower corner (coordinates 0, 1) … -/
theorem v50_at (x0 : (⟨S8x128x4, .f32⟩ : BufTy).Contents (Elt Ideal)) (b : Fin 8) (p : Fin 16384) (m : Fin 32) (c : Fin 2) :
    val_main_v50 (F := Ideal) x0 (ix4 b p m c) = val_main_v36 (F := Ideal) x0 (ix3 b p (⟨c.val, by omega⟩ : Fin 4)) := by
  rw [val_main_v50_apply, val_main_v48_apply, val_main_v46_apply]
  exact congrArg (val_main_v36 (F := Ideal) x0) (by idx3)
/-- … the candidate's lower corner … -/
theorem v51_at (x1 : (⟨S8x32x4, .f32⟩ : BufTy).Contents (Elt Ideal)) (b : Fin 8) (p : Fin 16384) (m : Fin 32) (c : Fin 2) :
    val_main_v51 (F := Ideal) x1 (ix4 b p m c) = x1 (ix3 b m (⟨c.val, by omega⟩ : Fin 4)) := by
  rw [val_main_v51_apply, val_main_v49_apply, val_main_v47_apply]
  exact congrArg x1 (by idx3)
/-- … the pair's upper corner (coordinates 2, 3) … -/
theorem v55_at (x0 : (⟨S8x128x4, .f32⟩ : BufTy).Contents (Elt Ideal)) (b : Fin 8) (p : Fin 16384) (m : Fin 32) (c : Fin 2) :
    val_main_v55 (F := Ideal) x0 (ix4 b p m c) = val_main_v36 (F := Ideal) x0 (ix3 b p (⟨2 + c.val, by omega⟩ : Fin 4)) := by
  rw [val_main_v55_apply, val_main_v53_apply, val_main_v46_apply]
  exact congrArg (val_main_v36 (F := Ideal) x0) (by idx3)
/-- … and the candidate's upper corner. -/
theorem v56_at (x1 : (⟨S8x32x4, .f32⟩ : BufTy).Contents (Elt Ideal)) (b : Fin 8) (p : Fin 16384) (m : Fin 32) (c : Fin 2) :
    val_main_v56 (F := Ideal) x1 (ix4 b p m c) = x1 (ix3 b m (⟨2 + c.val, by omega⟩ : Fin 4)) := by
  rw [val_main_v56_apply, val_main_v54_apply, val_main_v47_apply]
  exact congrArg x1 (by idx3)

/-- The overlap's width is the clipped array's column 0 … -/
theorem v61_at (x0 : (⟨S8x128x4, .f32⟩ : BufTy).Contents (Elt Ideal)) (x1 : (⟨S8x32x4, .f32⟩ : BufTy).Contents (Elt Ideal)) (b : Fin 8) (p : Fin 16384) (m : Fin 32) :
    val_main_v61 (F := Ideal) x0 x1 (ix3 b p m) = val_main_v59 (F := Ideal) x0 x1 (ix4 b p m (0 : Fin 2)) := by
  rw [val_main_v61_apply, val_main_v60_apply]
  exact congrArg (val_main_v59 (F := Ideal) x0 x1) (by idx4)
/-- … and its height column 1. -/
theorem v63_at (x0 : (⟨S8x128x4, .f32⟩ : BufTy).Contents (Elt Ideal)) (x1 : (⟨S8x32x4, .f32⟩ : BufTy).Contents (Elt Ideal)) (b : Fin 8) (p : Fin 16384) (m : Fin 32) :
    val_main_v63 (F := Ideal) x0 x1 (ix3 b p m) = val_main_v59 (F := Ideal) x0 x1 (ix4 b p m (1 : Fin 2)) := by
  rw [val_main_v63_apply, val_main_v62_apply]
  exact congrArg (val_main_v59 (F := Ideal) x0 x1) (by idx4)

/-! ## The corners, as the two areas' single-coordinate slices read them -/

theorem v66_at (x0 : (⟨S8x128x4, .f32⟩ : BufTy).Contents (Elt Ideal)) (b : Fin 8) (p : Fin 16384) :
    val_main_v66 (F := Ideal) x0 (ix3 b p (0 : Fin 1)) = val_main_v36 (F := Ideal) x0 (ix3 b p (2 : Fin 4)) := by
  rw [val_main_v66_apply, val_main_v65_apply, val_main_v46_apply]
  exact congrArg (val_main_v36 (F := Ideal) x0) (by idx3)
theorem v68_at (x0 : (⟨S8x128x4, .f32⟩ : BufTy).Contents (Elt Ideal)) (b : Fin 8) (p : Fin 16384) :
    val_main_v68 (F := Ideal) x0 (ix3 b p (0 : Fin 1)) = val_main_v36 (F := Ideal) x0 (ix3 b p (0 : Fin 4)) := by
  rw [val_main_v68_apply, val_main_v67_apply, val_main_v46_apply]
  exact congrArg (val_main_v36 (F := Ideal) x0) (by idx3)
theorem v71_at (x0 : (⟨S8x128x4, .f32⟩ : BufTy).Contents (Elt Ideal)) (b : Fin 8) (p : Fin 16384) :
    val_main_v71 (F := Ideal) x0 (ix3 b p (0 : Fin 1)) = val_main_v36 (F := Ideal) x0 (ix3 b p (3 : Fin 4)) := by
  rw [val_main_v71_apply, val_main_v70_apply, val_main_v46_apply]
  exact congrArg (val_main_v36 (F := Ideal) x0) (by idx3)
theorem v73_at (x0 : (⟨S8x128x4, .f32⟩ : BufTy).Contents (Elt Ideal)) (b : Fin 8) (p : Fin 16384) :
    val_main_v73 (F := Ideal) x0 (ix3 b p (0 : Fin 1)) = val_main_v36 (F := Ideal) x0 (ix3 b p (1 : Fin 4)) := by
  rw [val_main_v73_apply, val_main_v72_apply, val_main_v46_apply]
  exact congrArg (val_main_v36 (F := Ideal) x0) (by idx3)
theorem v77_at (x1 : (⟨S8x32x4, .f32⟩ : BufTy).Contents (Elt Ideal)) (b : Fin 8) (m : Fin 32) :
    val_main_v77 (F := Ideal) x1 (ix3 b (0 : Fin 1) m) = x1 (ix3 b m (2 : Fin 4)) := by
  rw [val_main_v77_apply, val_main_v76_apply, val_main_v47_apply]
  exact congrArg x1 (by idx3)
theorem v79_at (x1 : (⟨S8x32x4, .f32⟩ : BufTy).Contents (Elt Ideal)) (b : Fin 8) (m : Fin 32) :
    val_main_v79 (F := Ideal) x1 (ix3 b (0 : Fin 1) m) = x1 (ix3 b m (0 : Fin 4)) := by
  rw [val_main_v79_apply, val_main_v78_apply, val_main_v47_apply]
  exact congrArg x1 (by idx3)
theorem v82_at (x1 : (⟨S8x32x4, .f32⟩ : BufTy).Contents (Elt Ideal)) (b : Fin 8) (m : Fin 32) :
    val_main_v82 (F := Ideal) x1 (ix3 b (0 : Fin 1) m) = x1 (ix3 b m (3 : Fin 4)) := by
  rw [val_main_v82_apply, val_main_v81_apply, val_main_v47_apply]
  exact congrArg x1 (by idx3)
theorem v84_at (x1 : (⟨S8x32x4, .f32⟩ : BufTy).Contents (Elt Ideal)) (b : Fin 8) (m : Fin 32) :
    val_main_v84 (F := Ideal) x1 (ix3 b (0 : Fin 1) m) = x1 (ix3 b m (1 : Fin 4)) := by
  rw [val_main_v84_apply, val_main_v83_apply, val_main_v47_apply]
  exact congrArg x1 (by idx3)

/-- The pair's area does not depend on the candidate … -/
theorem v87_at (x0 : (⟨S8x128x4, .f32⟩ : BufTy).Contents (Elt Ideal)) (b : Fin 8) (p : Fin 16384) (m : Fin 32) :
    val_main_v87 (F := Ideal) x0 (ix3 b p m) = val_main_v75 (F := Ideal) x0 (ix3 b p (0 : Fin 1)) := by
  rw [val_main_v87_apply]
  exact congrArg (val_main_v75 (F := Ideal) x0) (by idx3)
/-- … nor the candidate's on the pair. -/
theorem v88_at (x1 : (⟨S8x32x4, .f32⟩ : BufTy).Contents (Elt Ideal)) (b : Fin 8) (p : Fin 16384) (m : Fin 32) :
    val_main_v88 (F := Ideal) x1 (ix3 b p m) = val_main_v86 (F := Ideal) x1 (ix3 b (0 : Fin 1) m) := by
  rw [val_main_v88_apply]
  exact congrArg (val_main_v86 (F := Ideal) x1) (by idx3)

/-! ## The intersection over union -/

/-- The quotient at pair `p` and candidate `m`: the specification's `iou` of the gathered box's four coordinates
    and the candidate's four. -/
theorem iou_h_gathered (x0 : (⟨S8x128x4, .f32⟩ : BufTy).Contents (Elt Ideal)) (x1 : (⟨S8x32x4, .f32⟩ : BufTy).Contents (Elt Ideal)) (b : Fin 8) (p : Fin 16384) (m : Fin 32) :
    val_main_v91 (F := Ideal) x0 x1 (ix3 b p m) =
      Cert.Spec.iou (val_main_v36 (F := Ideal) x0 (ix3 b p (0 : Fin 4))) (val_main_v36 (F := Ideal) x0 (ix3 b p (1 : Fin 4)))
        (val_main_v36 (F := Ideal) x0 (ix3 b p (2 : Fin 4))) (val_main_v36 (F := Ideal) x0 (ix3 b p (3 : Fin 4)))
        (x1 (ix3 b m (0 : Fin 4))) (x1 (ix3 b m (1 : Fin 4))) (x1 (ix3 b m (2 : Fin 4))) (x1 (ix3 b m (3 : Fin 4))) := by
  simp only [val_main_v91_apply, val_main_v90_apply, val_main_v89_apply, v87_at, v88_at, val_main_v75_apply, val_main_v69_apply, val_main_v74_apply, v66_at, v68_at,
    v71_at, v73_at, val_main_v86_apply, val_main_v80_apply, val_main_v85_apply, v77_at, v79_at, v82_at, v84_at, val_main_v64_apply,
    v61_at, v63_at, val_main_v59_apply, val_main_call0_v1_apply, val_main_call0_v0_apply, val_main_cst_apply,
    val_main_v58_apply, val_main_v57_apply, val_main_v52_apply, v55_at, v56_at, v50_at, v51_at]
  rfl

/-- The same with the gather read: the box is box `p / 128`. -/
theorem iou_h (x0 : (⟨S8x128x4, .f32⟩ : BufTy).Contents (Elt Ideal)) (x1 : (⟨S8x32x4, .f32⟩ : BufTy).Contents (Elt Ideal))
    (b : Fin 8) (p : Fin 16384) (m : Fin 32) :
    val_main_v91 (F := Ideal) x0 x1 (ix3 b p m) = Cert.Spec.iouAt x0 x1 b (hi p) m := by
  rw [iou_h_gathered]
  simp only [v36_at]
  rfl

end Cert.RefValue

end
-- ==== Proof.RefIouO.lean ====
/-
  The reference's second intersection-over-union, read at an index: the "object" box of each pair (the box gathered
  through column 1 of the table of pairs) against each candidate row of boxes_o.

  The reference computes it on whole arrays: the two boxes' corners are broadcast against each other, the overlap's
  width and height (the smaller upper corner less the larger lower corner, clipped at zero) multiplied, and the
  product divided by the two areas' sum less the product. Read at pair p and candidate m every slice, reshape and
  broadcast only renames an index, so the element is the specification's iou of the eight coordinates.
-/
import proofs.«144945_j77309411760_2_alg».proof.Proof.RefIndex

noncomputable section

namespace Cert.RefValue

open Cert.ReferenceIdeal Cert.ReferenceIdeal.Gen Cert.ReferenceIdeal.Read Idealize.ShloMosaic Idealize.ShloMosaic.ValueIdx Idealize.ShloMosaic.StableHlo

/-! ## The corners, as the overlap's four broadcast slices read them -/

/-- The pair's lower corner (coordinates 0, 1) … -/
theorem v96_at (x0 : (⟨S8x128x4, .f32⟩ : BufTy).Contents (Elt Ideal)) (b : Fin 8) (p : Fin 16384) (m : Fin 32) (c : Fin 2) :
    val_main_v96 (F := Ideal) x0 (ix4 b p m c) = val_main_v45 (F := Ideal) x0 (ix3 b p (⟨c.val, by omega⟩ : Fin 4)) := by
  rw [val_main_v96_apply, val_main_v94_apply, val_main_v92_apply]
  exact congrArg (val_main_v45 (F := Ideal) x0) (by idx3)
/-- … the candidate's lower corner … -/
theorem v97_at (x2 : (⟨S8x32x4, .f32⟩ : BufTy).Contents (Elt Ideal)) (b : Fin 8) (p : Fin 16384) (m : Fin 32) (c : Fin 2) :
    val_main_v97 (F := Ideal) x2 (ix4 b p m c) = x2 (ix3 b m (⟨c.val, by omega⟩ : Fin 4)) := by
  rw [val_main_v97_apply, val_main_v95_apply, val_main_v93_apply]
  exact congrArg x2 (by idx3)
/-- … the pair's upper corner (coordinates 2, 3) … -/
theorem v101_at (x0 : (⟨S8x128x4, .f32⟩ : BufTy).Contents (Elt Ideal)) (b : Fin 8) (p : Fin 16384) (m : Fin 32) (c : Fin 2) :
    val_main_v101 (F := Ideal) x0 (ix4 b p m c) = val_main_v45 (F := Ideal) x0 (ix3 b p (⟨2 + c.val, by omega⟩ : Fin 4)) := by
  rw [val_main_v101_apply, val_main_v99_apply, val_main_v92_apply]
  exact congrArg (val_main_v45 (F := Ideal) x0) (by idx3)
/-- … and the candidate's upper corner. -/
theorem v102_at (x2 : (⟨S8x32x4, .f32⟩ : BufTy).Contents (Elt Ideal)) (b : Fin 8) (p : Fin 16384) (m : Fin 32) (c : Fin 2) :
    val_main_v102 (F := Ideal) x2 (ix4 b p m c) = x2 (ix3 b m (⟨2 + c.val, by omega⟩ : Fin 4)) := by
  rw [val_main_v102_apply, val_main_v100_apply, val_main_v93_apply]
  exact congrArg x2 (by idx3)

/-- The overlap's width is the clipped array's column 0 … -/
theorem v107_at (x0 : (⟨S8x128x4, .f32⟩ : BufTy).Contents (Elt Ideal)) (x2 : (⟨S8x32x4, .f32⟩ : BufTy).Contents (Elt Ideal)) (b : Fin 8) (p : Fin 16384) (m : Fin 32) :
    val_main_v107 (F := Ideal) x0 x2 (ix3 b p m) = val_main_v105 (F := Ideal) x0 x2 (ix4 b p m (0 : Fin 2)) := by
  rw [val_main_v107_apply, val_main_v106_apply]
  exact congrArg (val_main_v105 (F := Ideal) x0 x2) (by idx4)
/-- … and its height column 1. -/
theorem v109_at (x0 : (⟨S8x128x4, .f32⟩ : BufTy).Contents (Elt Ideal)) (x2 : (⟨S8x32x4, .f32⟩ : BufTy).Contents (Elt Ideal)) (b : Fin 8) (p : Fin 16384) (m : Fin 32) :
    val_main_v109 (F := Ideal) x0 x2 (ix3 b p m) = val_main_v105 (F := Ideal) x0 x2 (ix4 b p m (1 : Fin 2)) := by
  rw [val_main_v109_apply, val_main_v108_apply]
  exact congrArg (val_main_v105 (F := Ideal) x0 x2) (by idx4)

/-! ## The corners, as the two areas' single-coordinate slices read them -/

theorem v112_at (x0 : (⟨S8x128x4, .f32⟩ : BufTy).Contents (Elt Ideal)) (b : Fin 8) (p : Fin 16384) :
    val_main_v112 (F := Ideal) x0 (ix3 b p (0 : Fin 1)) = val_main_v45 (F := Ideal) x0 (ix3 b p (2 : Fin 4)) := by
  rw [val_main_v112_apply, val_main_v111_apply, val_main_v92_apply]
  exact congrArg (val_main_v45 (F := Ideal) x0) (by idx3)
theorem v114_at (x0 : (⟨S8x128x4, .f32⟩ : BufTy).Contents (Elt Ideal)) (b : Fin 8) (p : Fin 16384) :
    val_main_v114 (F := Ideal) x0 (ix3 b p (0 : Fin 1)) = val_main_v45 (F := Ideal) x0 (ix3 b p (0 : Fin 4)) := by
  rw [val_main_v114_apply, val_main_v113_apply, val_main_v92_apply]
  exact congrArg (val_main_v45 (F := Ideal) x0) (by idx3)
theorem v117_at (x0 : (⟨S8x128x4, .f32⟩ : BufTy).Contents (Elt Ideal)) (b : Fin 8) (p : Fin 16384) :
    val_main_v117 (F := Ideal) x0 (ix3 b p (0 : Fin 1)) = val_main_v45 (F := Ideal) x0 (ix3 b p (3 : Fin 4)) := by
  rw [val_main_v117_apply, val_main_v116_apply, val_main_v92_apply]
  exact congrArg (val_main_v45 (F := Ideal) x0) (by idx3)
theorem v119_at (x0 : (⟨S8x128x4, .f32⟩ : BufTy).Contents (Elt Ideal)) (b : Fin 8) (p : Fin 16384) :
    val_main_v119 (F := Ideal) x0 (ix3 b p (0 : Fin 1)) = val_main_v45 (F := Ideal) x0 (ix3 b p (1 : Fin 4)) := by
  rw [val_main_v119_apply, val_main_v118_apply, val_main_v92_apply]
  exact congrArg (val_main_v45 (F := Ideal) x0) (by idx3)
theorem v123_at (x2 : (⟨S8x32x4, .f32⟩ : BufTy).Contents (Elt Ideal)) (b : Fin 8) (m : Fin 32) :
    val_main_v123 (F := Ideal) x2 (ix3 b (0 : Fin 1) m) = x2 (ix3 b m (2 : Fin 4)) := by
  rw [val_main_v123_apply, val_main_v122_apply, val_main_v93_apply]
  exact congrArg x2 (by idx3)
theorem v125_at (x2 : (⟨S8x32x4, .f32⟩ : BufTy).Contents (Elt Ideal)) (b : Fin 8) (m : Fin 32) :
    val_main_v125 (F := Ideal) x2 (ix3 b (0 : Fin 1) m) = x2 (ix3 b m (0 : Fin 4)) := by
  rw [val_main_v125_apply, val_main_v124_apply, val_main_v93_apply]
  exact congrArg x2 (by idx3)
theorem v128_at (x2 : (⟨S8x32x4, .f32⟩ : BufTy).Contents (Elt Ideal)) (b : Fin 8) (m : Fin 32) :
    val_main_v128 (F := Ideal) x2 (ix3 b (0 : Fin 1) m) = x2 (ix3 b m (3 : Fin 4)) := by
  rw [val_main_v128_apply, val_main_v127_apply, val_main_v93_apply]
  exact congrArg x2 (by idx3)
theorem v130_at (x2 : (⟨S8x32x4, .f32⟩ : BufTy).Contents (Elt Ideal)) (b : Fin 8) (m : Fin 32) :
    val_main_v130 (F := Ideal) x2 (ix3 b (0 : Fin 1) m) = x2 (ix3 b m (1 : Fin 4)) := by
  rw [val_main_v130_apply, val_main_v129_apply, val_main_v93_apply]
  exact congrArg x2 (by idx3)

/-- The pair's area does not depend on the candidate … -/
theorem v133_at (x0 : (⟨S8x128x4, .f32⟩ : BufTy).Contents (Elt Ideal)) (b : Fin 8) (p : Fin 16384) (m : Fin 32) :
    val_main_v133 (F := Ideal) x0 (ix3 b p m) = val_main_v121 (F := Ideal) x0 (ix3 b p (0 : Fin 1)) := by
  rw [val_main_v133_apply]
  exact congrArg (val_main_v121 (F := Ideal) x0) (by idx3)
/-- … nor the candidate's on the pair. -/
theorem v134_at (x2 : (⟨S8x32x4, .f32⟩ : BufTy).Contents (Elt Ideal)) (b : Fin 8) (p : Fin 16384) (m : Fin 32) :
    val_main_v134 (F := Ideal) x2 (ix3 b p m) = val_main_v132 (F := Ideal) x2 (ix3 b (0 : Fin 1) m) := by
  rw [val_main_v134_apply]
  exact congrArg (val_main_v132 (F := Ideal) x2) (by idx3)

/-! ## The intersection over union -/

/-- The quotient at pair `p` and candidate `m`: the specification's `iou` of the gathered box's four coordinates
    and the candidate's four. -/
theorem iou_o_gathered (x0 : (⟨S8x128x4, .f32⟩ : BufTy).Contents (Elt Ideal)) (x2 : (⟨S8x32x4, .f32⟩ : BufTy).Contents (Elt Ideal)) (b : Fin 8) (p : Fin 16384) (m : Fin 32) :
    val_main_v137 (F := Ideal) x0 x2 (ix3 b p m) =
      Cert.Spec.iou (val_main_v45 (F := Ideal) x0 (ix3 b p (0 : Fin 4))) (val_main_v45 (F := Ideal) x0 (ix3 b p (1 : Fin 4)))
        (val_main_v45 (F := Ideal) x0 (ix3 b p (2 : Fin 4))) (val_main_v45 (F := Ideal) x0 (ix3 b p (3 : Fin 4)))
        (x2 (ix3 b m (0 : Fin 4))) (x2 (ix3 b m (1 : Fin 4))) (x2 (ix3 b m (2 : Fin 4))) (x2 (ix3 b m (3 : Fin 4))) := by
  simp only [val_main_v137_apply, val_main_v136_apply, val_main_v135_apply, v133_at, v134_at, val_main_v121_apply, val_main_v115_apply, val_main_v120_apply, v112_at, v114_at,
    v117_at, v119_at, val_main_v132_apply, val_main_v126_apply, val_main_v131_apply, v123_at, v125_at, v128_at, v130_at, val_main_v110_apply,
    v107_at, v109_at, val_main_v105_apply, val_main_call1_v1_apply, val_main_call1_v0_apply, val_main_cst_6_apply,
    val_main_v104_apply, val_main_v103_apply, val_main_v98_apply, v101_at, v102_at, v96_at, v97_at]
  rfl

/-- The same with the gather read: the box is box `p % 128`. -/
theorem iou_o (x0 : (⟨S8x128x4, .f32⟩ : BufTy).Contents (Elt Ideal)) (x2 : (⟨S8x32x4, .f32⟩ : BufTy).Contents (Elt Ideal))
    (b : Fin 8) (p : Fin 16384) (m : Fin 32) :
    val_main_v137 (F := Ideal) x0 x2 (ix3 b p m) = Cert.Spec.iouAt x0 x2 b (lo p) m := by
  rw [iou_o_gathered]
  simp only [v45_at]
  rfl

end Cert.RefValue

end
-- ==== Proof.RefMatch.lean ====
/-
  The reference's match indicator, read at an index: candidate m matches pair p when the smaller of the two
  intersection-over-unions is at least one half; the truth bit is then converted to a float, which on the extended
  reals is the number 0 or 1 of the bit.
-/
import proofs.«144945_j77309411760_2_alg».proof.Proof.RefIndex

noncomputable section

namespace Cert.RefValue

open Cert.ReferenceIdeal Cert.ReferenceIdeal.Gen Cert.ReferenceIdeal.Read Idealize.ShloMosaic Idealize.ShloMosaic.ValueIdx Idealize.ShloMosaic.StableHlo

/-- The indicator at pair `p` and candidate `m`, over the two quotients as the reference computes them. -/
theorem match141 (x0 : (⟨S8x128x4, .f32⟩ : BufTy).Contents (Elt Ideal)) (x1 x2 : (⟨S8x32x4, .f32⟩ : BufTy).Contents (Elt Ideal))
    (b : Fin 8) (p : Fin 16384) (m : Fin 32) :
    val_main_v141 (F := Ideal) x0 x1 x2 (ix3 b p m) =
      Cert.Spec.tf (Ideal.cmp .oge (min (val_main_v91 (F := Ideal) x0 x1 (ix3 b p m)) (val_main_v137 (F := Ideal) x0 x2 (ix3 b p m))) Cert.Spec.H) := by
  rw [val_main_v141_apply, val_main_v140_apply, val_main_v138_apply, val_main_v139_apply, val_main_cst_7_apply]
  rfl

end Cert.RefValue

end
-- ==== Proof.RefDot.lean ====
/-
  The reference's one-hot classes and its capped contraction, read at an index.

  `one_hot(hoi)` at `(b, m, c)` is the truth value of "`hoi[b, m]` is the word of `c`"; the einsum over the 32 candidates,
  capped at one, at `(b, p, c)` is the smaller of one and the sum over `m` of the match value at `(b, p, m)` times that
  one-hot entry.
-/
import proofs.«144945_j77309411760_2_alg».proof.Proof.Gen.ReferenceIdeal.Read
import proofs.«144945_j77309411760_2_alg».proof.Proof.Spec

noncomputable section

namespace Cert.RefDot

open Idealize.ShloMosaic Idealize.ShloMosaic.ValueIdx
open Cert.ReferenceIdeal Cert.ReferenceIdeal.Gen Cert.ReferenceIdeal.Read

/-- The reference's one-hot entry is the specification's. -/
theorem onehot142 (x4 : (⟨S8x32, .i32⟩ : BufTy).Contents (Elt Ideal)) (b : Fin 8) (mm : Fin 32) (cc : Fin 600) :
    val_main_v142 (F := Ideal) x4 (ix3 b mm cc) = Cert.Spec.onehot x4 b mm cc := by
  rw [val_main_v142_apply, val_main_call2_v4_apply, val_main_call2_v2_apply, val_main_call2_v0_apply,
    val_main_call2_v3_apply, val_main_call2_v1_apply]
  have e1 : idx_main_call2_v0 (idx_main_call2_v2 (ix3 b mm cc)) = ix2 b mm :=
    funext fun a => Fin.ext (by match a with | ⟨0, _⟩ => rfl | ⟨1, _⟩ => rfl)
  rw [e1]
  rfl

/-- The contraction over the candidates, capped at one. -/
theorem capped145 (x0 : (⟨S8x128x4, .f32⟩ : BufTy).Contents (Elt Ideal)) (x1 x2 : (⟨S8x32x4, .f32⟩ : BufTy).Contents (Elt Ideal))
    (x4 : (⟨S8x32, .i32⟩ : BufTy).Contents (Elt Ideal)) (b : Fin 8) (p : Fin 16384) (cc : Fin 600) :
    val_main_v145 (F := Ideal) x0 x1 x2 x4 (ix3 b p cc)
      = min (∑ mm : Fin 32, val_main_v141 (F := Ideal) x0 x1 x2 (ix3 b p mm) * val_main_v142 (F := Ideal) x4 (ix3 b mm cc)) Cert.Spec.O := by
  rw [val_main_v145_apply, val_main_v143_apply, val_main_v144_apply, val_main_cst_8_apply]
  have el : ∀ k : Fin 32, lidx_main_v143 (ix3 b p cc) k = ix3 b p k := fun k =>
    funext fun a => Fin.ext (by match a with | ⟨0, _⟩ => rfl | ⟨1, _⟩ => rfl | ⟨2, _⟩ => rfl)
  have er : ∀ k : Fin 32, ridx_main_v143 (ix3 b p cc) k = ix3 b k cc := fun k =>
    funext fun a => Fin.ext (by match a with | ⟨0, _⟩ => rfl | ⟨1, _⟩ => rfl | ⟨2, _⟩ => rfl)
  simp only [el, er]
  rfl

end Cert.RefDot

end
-- ==== Proof.RefLabels.lean ====
/-
  The reference's labels are the specification's.

  At batch entry b, pair p and class c the reference multiplies the capped count of matching candidates of class c
  by the validity mask. The count is the contraction over the 32 candidates of the match indicator with the one-hot
  class table; the indicator compares the smaller of the two intersection-over-unions, of the boxes p / 128 and
  p % 128 against the candidate, with one half. Each factor read at its index is the specification's, with
  i = p / 128 and j = p % 128.
-/
import proofs.«144945_j77309411760_2_alg».proof.Proof.RefValid
import proofs.«144945_j77309411760_2_alg».proof.Proof.RefIouH
import proofs.«144945_j77309411760_2_alg».proof.Proof.RefIouO
import proofs.«144945_j77309411760_2_alg».proof.Proof.RefMatch
import proofs.«144945_j77309411760_2_alg».proof.Proof.RefDot

noncomputable section

namespace Cert.RefValue

open Cert.ReferenceIdeal Cert.ReferenceIdeal.Gen Cert.ReferenceIdeal.Read Idealize.ShloMosaic Idealize.ShloMosaic.ValueIdx Idealize.ShloMosaic.StableHlo

open scoped BigOperators

/-- The reference's second result, as a whole array, is the specification's labels laid out row-major over the pairs. -/
theorem labels_eq (x0 : (⟨S8x128x4, .f32⟩ : BufTy).Contents (Elt Ideal)) (x1 x2 : (⟨S8x32x4, .f32⟩ : BufTy).Contents (Elt Ideal))
    (x3 : (⟨S8x128, .i32⟩ : BufTy).Contents (Elt Ideal)) (x4 : (⟨S8x32, .i32⟩ : BufTy).Contents (Elt Ideal)) :
    Cert.ReferenceIdeal.Read.val_main_v149 (F := Ideal) x0 x1 x2 x3 x4 = Cert.Spec.labelsFlat x0 x1 x2 x3 x4 := by
  funext x
  obtain ⟨b, p, c, rfl⟩ : ∃ b p c, x = ix3 b p c := ⟨x 0, x 1, x 2, eq_ix3 x⟩
  show val_main_v149 (F := Ideal) x0 x1 x2 x3 x4 (ix3 b p c) = Cert.Spec.labels x0 x1 x2 x3 x4 b (hi p) (lo p) c
  rw [val_main_v149_apply, Cert.RefDot.capped145, v148_at]
  simp only [match141, Cert.RefDot.onehot142, iou_h, iou_o]
  rfl

end Cert.RefValue

end
-- ==== Proof.lean ====
/-
  The certificate's claims, assembled.

  Both programs return the table of index pairs `(p / 128, p % 128)`, built from the same iotas, and the array of
  labels: for batch entry `b`, pair `p = 128 i + j` and class `c`, the number of candidates `m` whose smaller
  intersection-over-union — box `i` against `boxes_h[m]`, box `j` against `boxes_o[m]` — is at least one half and whose
  `hoi` class is `c`, capped at one, kept when box `i` is labelled 49 and `i ≠ j`. The kernel computes four human
  rows per grid point, the contraction over `m` on the matrix unit; the reference gathers both boxes of every pair
  and contracts with an einsum. On the extended reals the two are the same sum of the same products, so no
  finiteness of the inputs is used. The kernel's idealization rewrote nothing, and each program's frame is its run
  with the results forgotten.
-/
import proofs.«144945_j77309411760_2_alg».proof.Defs
import proofs.«144945_j77309411760_2_alg».proof.Proof.Gen.Kernel
import proofs.«144945_j77309411760_2_alg».proof.Proof.Gen.Kernel.Frame
import proofs.«144945_j77309411760_2_alg».proof.Proof.Gen.KernelIdeal
import proofs.«144945_j77309411760_2_alg».proof.Proof.Gen.KernelIdeal.Frame
import proofs.«144945_j77309411760_2_alg».proof.Proof.Gen.ReferenceIdeal
import proofs.«144945_j77309411760_2_alg».proof.Proof.Gen.ReferenceIdeal.Run
import proofs.«144945_j77309411760_2_alg».proof.Proof.Gen.ReferenceIdeal.Read
import proofs.«144945_j77309411760_2_alg».proof.Proof.Gen.Pre_finite_inputs
import proofs.«144945_j77309411760_2_alg».proof.Proof.KerArray
import proofs.«144945_j77309411760_2_alg».proof.Proof.RefLabels
import Idealize.ShloMosaic.Adequacy
import Idealize.ShloMosaic.Init

noncomputable section

namespace Cert.Proof

open Idealize.ShloMosaic Idealize.ShloMosaic.TcCoe Idealize.SL.Sem

/-- The word-level kernel runs and leaves its arguments alone. -/
theorem frame_kernel [Cert.Kernel.Facts] [Cert.Pre_finite_inputs.Facts] : Cert.frame_Kernel :=
  fun m ρ _ => Cert.Kernel.Gen.frame m ρ

/-- So does its idealization. -/
theorem frame_kernelIdeal [Cert.KernelIdeal.Facts] [Cert.Pre_finite_inputs.Facts] : Cert.frame_KernelIdeal :=
  fun m ρ _ => Cert.KernelIdeal.Gen.frame m ρ

/-- The reference's frame is its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories agreeing on the arguments both programs end with the pair table and with the labels of the
    specification: the kernel by its blocks (`Cert.KerValue.run`), the reference stage by stage
    (`Cert.RefValue.labels_eq`). -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun _ => Cert.KerHost.pairTable (F := Ideal), _, Cert.KerValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rfl
  · rw [Cert.ReferenceIdeal.Read.val_main_v149_eq, Cert.RefValue.labels_eq,
      (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
